-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S100000x128 .f32) (main_arg1 : IVec S2x1600000 32) (main_arg2 : FVec F S128x64 .f32) (main_arg3 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S100000x64 : Shape := ⟨2, ![100000, 64]⟩
abbrev S10000x128 : Shape := ⟨2, ![10000, 128]⟩
abbrev S10000x64 : Shape := ⟨2, ![10000, 64]⟩
abbrev S_ : Shape := ⟨0, ![]⟩
abbrev S1700000x1 : Shape := ⟨2, ![1700000, 1]⟩
abbrev S1700000x64 : Shape := ⟨2, ![1700000, 64]⟩
abbrev S6800x64 : Shape := ⟨2, ![6800, 64]⟩
abbrev S6800x1 : Shape := ⟨2, ![6800, 1]⟩
abbrev S1x64 : Shape := ⟨2, ![1, 64]⟩
abbrev S5000x64 : Shape := ⟨2, ![5000, 64]⟩
abbrev S5000 : Shape := ⟨1, ![5000]⟩
abbrev S5000x1 : Shape := ⟨2, ![5000, 1]⟩

abbrev nBuf : Space → Nat
  | .hbm => 62
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S1x1600000, .i32⟩
  | .hbm, ⟨5, _⟩ => ⟨S1600000, .i32⟩
  | .hbm, ⟨6, _⟩ => ⟨S1x1600000, .i32⟩
  | .hbm, ⟨7, _⟩ => ⟨S1600000, .i32⟩
  | .hbm, ⟨8, _⟩ => ⟨S100000, .i32⟩
  | .hbm, ⟨9, _⟩ => ⟨S1700000, .i32⟩
  | .hbm, ⟨10, _⟩ => ⟨S1700000, .i32⟩
  | .hbm, ⟨11, _⟩ => ⟨S100000x64, .f32⟩
  | .hbm, ⟨12, _⟩ => ⟨S_, .f32⟩
  | .hbm, ⟨13, _⟩ => ⟨S1700000, .f32⟩
  | .hbm, ⟨14, _⟩ => ⟨S_, .f32⟩
  | .hbm, ⟨15, _⟩ => ⟨S100000, .f32⟩
  | .hbm, ⟨16, _⟩ => ⟨S1700000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S1700000, .i32⟩
  | .hbm, ⟨28, _⟩ => ⟨S1700000, .i1⟩
  | .hbm, ⟨29, _⟩ => ⟨S_, .i32⟩
  | .hbm, ⟨30, _⟩ => ⟨S1700000, .i32⟩
  | .hbm, ⟨31, _⟩ => ⟨S1700000, .i32⟩
  | .hbm, ⟨32, _⟩ => ⟨S1700000, .i32⟩
  | .hbm, ⟨33, _⟩ => ⟨S1700000x1, .i32⟩
  | .hbm, ⟨34, _⟩ => ⟨S1700000x64, .f32⟩
  | .hbm, ⟨35, _⟩ => ⟨S_, .i32⟩
  | .hbm, ⟨36, _⟩ => ⟨S1700000, .i32⟩
  | .hbm, ⟨37, _⟩ => ⟨S1700000, .i1⟩
  | .hbm, ⟨38, _⟩ => ⟨S_, .i32⟩
  | .hbm, ⟨39, _⟩ => ⟨S1700000, .i32⟩
  | .hbm, ⟨40, _⟩ => ⟨S1700000, .i32⟩
  | .hbm, ⟨41, _⟩ => ⟨S1700000, .i32⟩
  | .hbm, ⟨42, _⟩ => ⟨S1700000x1, .i32⟩
  | .hbm, ⟨43, _⟩ => ⟨S1700000, .f32⟩
  | .hbm, ⟨44, _⟩ => ⟨S_, .i32⟩
  | .hbm, ⟨45, _⟩ => ⟨S1700000, .i32⟩
  | .hbm, ⟨46, _⟩ => ⟨S1700000, .i1⟩
  | .hbm, ⟨47, _⟩ => ⟨S_, .i32⟩
  | .hbm, ⟨48, _⟩ => ⟨S1700000, .i32⟩
  | .hbm, ⟨49, _⟩ => ⟨S1700000, .i32⟩
  | .hbm, ⟨50, _⟩ => ⟨S1700000, .i32⟩
  | .hbm, ⟨51, _⟩ => ⟨S1700000x1, .i32⟩
  | .hbm, ⟨52, _⟩ => ⟨S1700000, .f32⟩
  | .hbm, ⟨53, _⟩ => ⟨S1700000, .f32⟩
  | .hbm, ⟨54, _⟩ => ⟨S1700000x1, .f32⟩
  | .hbm, ⟨55, _⟩ => ⟨S1700000x64, .f32⟩
  | .hbm, ⟨56, _⟩ => ⟨S_, .f32⟩
  | .hbm, ⟨57, _⟩ => ⟨S100000x64, .f32⟩
  | .hbm, ⟨58, _⟩ => ⟨S1700000x1, .i32⟩
  | .hbm, ⟨59, _⟩ => ⟨S100000x64, .f32⟩
  | .hbm, ⟨60, _⟩ => ⟨S1x64, .f32⟩
  | .hbm, ⟨61, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S6800x64, .f32⟩
  | .local _ .vmem, ⟨6, _⟩ => ⟨S6800x64, .f32⟩
  | .local _ .vmem, ⟨7, _⟩ => ⟨S6800x1, .f32⟩
  | .local _ .vmem, ⟨8, _⟩ => ⟨S6800x1, .f32⟩
  | .local _ .vmem, ⟨9, _⟩ => ⟨S6800x64, .f32⟩
  | .local _ .vmem, ⟨10, _⟩ => ⟨S6800x64, .f32⟩
  | .local _ .vmem, ⟨11, _⟩ => ⟨S5000x64, .f32⟩
  | .local _ .vmem, ⟨12, _⟩ => ⟨S5000x64, .f32⟩
  | .local _ .vmem, ⟨13, _⟩ => ⟨S1x64, .f32⟩
  | .local _ .vmem, ⟨14, _⟩ => ⟨S5000x64, .f32⟩
  | .local _ .vmem, ⟨15, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_6 : Ref sig .tc := ⟨.hbm, 44, rfl⟩
abbrev main_v30 : Ref sig .tc := ⟨.hbm, 45, rfl⟩
abbrev main_v31 : Ref sig .tc := ⟨.hbm, 46, rfl⟩
abbrev main_c_7 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![250], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6800x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S6800x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S6800x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S1700000_S1700000x1 : S1700000.ShapeCasts S1700000x1
  inb_S6800x64_S6800x64_0_0 : ∀ a, (![0, 0] : Fin 2 → Nat) a + S6800x64.size a ≤ S6800x64.size a
  h_S6800x64 : 0 < S6800x64.numel
  shapeCasts_S6800x64_S6800x64 : S6800x64.ShapeCasts S6800x64
  inb_S6800x1_S6800x1_0_0 : ∀ a, (![0, 0] : Fin 2 → Nat) a + S6800x1.size a ≤ S6800x1.size a
  h_S6800x1 : 0 < S6800x1.numel
  shapeCasts_S6800x1_S6800x1 : S6800x1.ShapeCasts S6800x1
  broadcasts_S6800x1_S6800x64 : S6800x1.Broadcasts S6800x64
  bcast_S_S100000x64 : S_.BroadcastsInDim S100000x64 (![] : Fin 0 → Fin S100000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  shapeCasts_S5000_S5000x1 : S5000.ShapeCasts S5000x1
  broadcasts_S5000x1_S5000x64 : S5000x1.Broadcasts S5000x64
  dot_S10000x128_S128x64_S10000x64_1_0_0_1_n_n_wf : DotDims.WF S10000x128 S128x64 S10000x64 [1] [0] [0] [1] [] []
  scatter_S100000_S1700000x1_S1700000_n_0_0_1_wf : ScatterDims.WF S100000 S1700000x1 S1700000 [] [0] [0] 1
  gather_S100000x64_S1700000x1_S1700000x64_1_0_n_n_0_1_164_wf : GatherDims.WF S100000x64 S1700000x1 S1700000x64 [1] [0] [] [0] [] 1 ![1, 64]
  gather_S100000_S1700000x1_S1700000_n_0_n_n_0_1_1_wf : GatherDims.WF S100000 S1700000x1 S1700000 [] [0] [] [0] [] 1 ![1]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6800x64.size a ≤ S1700000x64.size a
  hwx1_0 : ∀ i : grid1.Coords, EltTy.bits .f32 = 32 ∨ (Rect.block (s := S1700000x64) S6800x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S6800x1.size a ≤ S1700000x1.size a
  hwx1_1 : ∀ i : grid1.Coords, EltTy.bits .f32 = 32 ∨ (Rect.block (s := S1700000x1) S6800x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S6800x64.size a ≤ S1700000x64.size a
  hwx1_2 : ∀ i : grid1.Coords, EltTy.bits .f32 = 32 ∨ (Rect.block (s := S1700000x64) S6800x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v22) S6800x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S6800x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v39) S6800x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v42) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v43) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S100000x64 : Shape := ⟨2, ![100000, 64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x1 : Shape := ⟨2, ![100000, 1]⟩

abbrev nBuf : Space → Nat
  | .hbm => 82
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S100000x64, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S100000, .i32⟩
  | .hbm, ⟨10, _⟩ => ⟨S1700000, .i32⟩
  | .hbm, ⟨11, _⟩ => ⟨S1700000, .i32⟩
  | .hbm, ⟨12, _⟩ => ⟨S_, .f32⟩
  | .hbm, ⟨13, _⟩ => ⟨S1700000, .f32⟩
  | .hbm, ⟨14, _⟩ => ⟨S_, .f32⟩
  | .hbm, ⟨15, _⟩ => ⟨S100000, .f32⟩
  | .hbm, ⟨16, _⟩ => ⟨S1700000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S1700000, .i32⟩
  | .hbm, ⟨28, _⟩ => ⟨S1700000, .i1⟩
  | .hbm, ⟨29, _⟩ => ⟨S_, .i32⟩
  | .hbm, ⟨30, _⟩ => ⟨S1700000, .i32⟩
  | .hbm, ⟨31, _⟩ => ⟨S1700000, .i32⟩
  | .hbm, ⟨32, _⟩ => ⟨S1700000, .i32⟩
  | .hbm, ⟨33, _⟩ => ⟨S1700000x1, .i32⟩
  | .hbm, ⟨34, _⟩ => ⟨S1700000, .f32⟩
  | .hbm, ⟨35, _⟩ => ⟨S_, .i32⟩
  | .hbm, ⟨36, _⟩ => ⟨S1700000, .i32⟩
  | .hbm, ⟨37, _⟩ => ⟨S1700000, .i1⟩
  | .hbm, ⟨38, _⟩ => ⟨S_, .i32⟩
  | .hbm, ⟨39, _⟩ => ⟨S1700000, .i32⟩
  | .hbm, ⟨40, _⟩ => ⟨S1700000, .i32⟩
  | .hbm, ⟨41, _⟩ => ⟨S1700000, .i32⟩
  | .hbm, ⟨42, _⟩ => ⟨S1700000x1, .i32⟩
  | .hbm, ⟨43, _⟩ => ⟨S1700000, .f32⟩
  | .hbm, ⟨44, _⟩ => ⟨S1700000, .f32⟩
  | .hbm, ⟨45, _⟩ => ⟨S_, .i32⟩
  | .hbm, ⟨46, _⟩ => ⟨S1700000, .i32⟩
  | .hbm, ⟨47, _⟩ => ⟨S1700000, .i1⟩
  | .hbm, ⟨48, _⟩ => ⟨S_, .i32⟩
  | .hbm, ⟨49, _⟩ => ⟨S1700000, .i32⟩
  | .hbm, ⟨50, _⟩ => ⟨S1700000, .i32⟩
  | .hbm, ⟨51, _⟩ => ⟨S1700000, .i32⟩
  | .hbm, ⟨52, _⟩ => ⟨S1700000x1, .i32⟩
  | .hbm, ⟨53, _⟩ => ⟨S1700000x64, .f32⟩
  | .hbm, ⟨54, _⟩ => ⟨S1700000x1, .f32⟩
  | .hbm, ⟨55, _⟩ => ⟨S1700000x64, .f32⟩
  | .hbm, ⟨56, _⟩ => ⟨S1700000x64, .f32⟩
  | .hbm, ⟨57, _⟩ => ⟨S_, .f32⟩
  | .hbm, ⟨58, _⟩ => ⟨S100000x64, .f32⟩
  | .hbm, ⟨59, _⟩ => ⟨S1700000x1, .i32⟩
  | .hbm, ⟨60, _⟩ => ⟨S100000x64, .f32⟩
  | .hbm, ⟨61, _⟩ => ⟨S1x64, .f32⟩
  | .hbm, ⟨62, _⟩ => ⟨S100000x64, .f32⟩
  | .hbm, ⟨63, _⟩ => ⟨S100000x64, .f32⟩
  | .hbm, ⟨64, _⟩ => ⟨S_, .f32⟩
  | .hbm, ⟨65, _⟩ => ⟨S100000x64, .f32⟩
  | .hbm, ⟨66, _⟩ => ⟨S100000x64, .f32⟩
  | .hbm, ⟨67, _⟩ => ⟨S_, .f32⟩
  | .hbm, ⟨68, _⟩ => ⟨S100000, .f32⟩
  | .hbm, ⟨69, _⟩ => ⟨S_, .f32⟩
  | .hbm, ⟨70, _⟩ => ⟨S100000, .f32⟩
  | .hbm, ⟨71, _⟩ => ⟨S100000, .f32⟩
  | .hbm, ⟨72, _⟩ => ⟨S100000x1, .f32⟩
  | .hbm, ⟨73, _⟩ => ⟨S100000x64, .f32⟩
  | .hbm, ⟨74, _⟩ => ⟨S100000x64, .f32⟩
  | .hbm, ⟨75, _⟩ => ⟨S100000x64, .f32⟩
  | .hbm, ⟨76, _⟩ => ⟨S_, .f32⟩
  | .hbm, ⟨77, _⟩ => ⟨S100000, .f32⟩
  | .hbm, ⟨78, _⟩ => ⟨S100000x1, .f32⟩
  | .hbm, ⟨79, _⟩ => ⟨S100000x1, .f32⟩
  | .hbm, ⟨80, _⟩ => ⟨S100000x64, .f32⟩
  | .hbm, ⟨81, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_call1_cst : Ref sig .tc := ⟨.hbm, 64, rfl⟩
abbrev main_call1_v0 : Ref sig .tc := ⟨.hbm, 65, rfl⟩
abbrev main_v47 : Ref sig .tc := ⟨.hbm, 66, rfl⟩
abbrev main_call2_cst : Ref sig .tc := ⟨.hbm, 67, rfl⟩
abbrev main_call2_v0 : Ref sig .tc := ⟨.hbm, 68, rfl⟩
abbrev main_call2_cst_0 : Ref sig .tc := ⟨.hbm, 69, rfl⟩
abbrev main_call2_v1 : Ref sig .tc := ⟨.hbm, 70, rfl⟩
abbrev main_call2_v2 : Ref sig .tc := ⟨.hbm, 71, rfl⟩
abbrev main_call2_v3 : Ref sig .tc := ⟨.hbm, 72, rfl⟩
abbrev main_call2_v4 : Ref sig .tc := ⟨.hbm, 73, rfl⟩
abbrev main_call2_v5 : Ref sig .tc := ⟨.hbm, 74, rfl⟩
abbrev main_call2_v6 : Ref sig .tc := ⟨.hbm, 75, rfl⟩
abbrev main_call2_cst_1 : Ref sig .tc := ⟨.hbm, 76, rfl⟩
abbrev main_call2_v7 : Ref sig .tc := ⟨.hbm, 77, rfl⟩
abbrev main_call2_v8 : Ref sig .tc := ⟨.hbm, 78, rfl⟩
abbrev main_call2_v9 : Ref sig .tc := ⟨.hbm, 79, rfl⟩
abbrev main_call2_v10 : Ref sig .tc := ⟨.hbm, 80, rfl⟩
abbrev main_v48 : Ref sig .tc := ⟨.hbm, 81, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  dot_S100000x128_S128x64_S100000x64_1_0_0_1_n_n_wf : DotDims.WF S100000x128 S128x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.RefOps.lean ====
/-
  The shared host stages of the graph-convolution layer, named once, and the reference's result as their composition.

  From the edge list e (a [2, 1600000] integer array) both programs form the source and the target node of every edge, the given
  ones followed by one self-loop per node (`rowIdx`, `colIdx`, each of length L = 1700000). From the target nodes: the in-degree
  of every node (`degreeOf`: ones added up by target), its inverse square root where positive and zero elsewhere (`disOf`), and
  from that and both ends of every edge the edge's weight (`weightOf`: the product of the two ends' values). A node index is used
  as a gather index after the wrap-around of negative values (`wrap`). Rows of a node array are gathered by source node
  (`gatherRowsOf`) and rows of an edge array added up by target node (`aggregateOf`).

  `refOut` is the reference's result: its own matrix product, its product of the gathered rows by the weights broadcast along the
  features, and its last stage (`tail`: add the bias, clamp at zero, row-wise log-softmax) around those shared stages.
-/
import proofs.«128410_j31610959299128_2_alg».proof.Proof.Gen.ReferenceIdeal
import Idealize.ShloMosaic.Lib.StableHlo.Run

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

/-- The source node of every edge: row 0 of the edge list, then the nodes 0 … N − 1 (the self-loops). -/
def rowIdx (e : (⟨S2x1600000, .i32⟩ : BufTy).Contents (Elt F)) : (⟨S1700000, .i32⟩ : BufTy).Contents (Elt F) :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

/-- The target node of every edge: row 1 of the edge list, then the nodes 0 … N − 1. -/
def colIdx (e : (⟨S2x1600000, .i32⟩ : BufTy).Contents (Elt F)) : (⟨S1700000, .i32⟩ : BufTy).Contents (Elt F) :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- A node index as a gather index: a negative value has N added to it; the result as an [L, 1] column. -/
def wrap (v : (⟨S1700000, .i32⟩ : BufTy).Contents (Elt F)) : (⟨S1700000x1, .i32⟩ : BufTy).Contents (Elt F) :=
  broadcastInDim S1700000x1 ![0] bcast_S1700000_S1700000x1_0 (select (cmpi .slt v (broadcastInDim S1700000 ![] bcast_S_S1700000 (constantI S_ 32 0#32))) (addi v (broadcastInDim S1700000 ![] bcast_S_S1700000 (constantI S_ 32 100000#32))) v)

/-- The in-degree of every node, self-loops included: ones added up by target node. -/
def degreeOf (col : (⟨S1700000, .i32⟩ : BufTy).Contents (Elt F)) : (⟨S100000, .f32⟩ : BufTy).Contents (Elt F) :=
  Host.scatterAdd scatter_S100000_S1700000x1_S1700000_n_0_0_1 (broadcastInDim S100000 ![] bcast_S_S100000 (constant S_ .f32 0x00000000#32)) (broadcastInDim S1700000x1 ![0] bcast_S1700000_S1700000x1_0 col) (broadcastInDim S1700000 ![] bcast_S_S1700000 (constant S_ .f32 0x3F800000#32))

/-- "The degree is positive", node by node. -/
def positiveOf (col : (⟨S1700000, .i32⟩ : BufTy).Contents (Elt F)) : (⟨S100000, .i1⟩ : BufTy).Contents (Elt F) :=
  cmpf (F := F) .ogt (degreeOf (F := F) col) (broadcastInDim S100000 ![] bcast_S_S100000 (constant S_ .f32 0x00000000#32))

/-- The degree's inverse square root where the degree is positive, zero elsewhere. -/
def disOf (col : (⟨S1700000, .i32⟩ : BufTy).Contents (Elt F)) : (⟨S100000, .f32⟩ : BufTy).Contents (Elt F) :=
  select (positiveOf (F := F) col) (Host.rsqrt (degreeOf (F := F) col)) (broadcastInDim S100000 ![] bcast_S_S100000 (id (constant S_ .f32 0x00000000#32)))

/-- The weight of every edge: the node values at its source and at its target, multiplied. -/
def weightOf (dis : (⟨S100000, .f32⟩ : BufTy).Contents (Elt F)) (row col : (⟨S1700000, .i32⟩ : BufTy).Contents (Elt F)) : (⟨S1700000, .f32⟩ : BufTy).Contents (Elt F) :=
  mulf (Host.gather gather_S100000_S1700000x1_S1700000_n_0_n_n_0_1_1 dis (wrap (F := F) row)) (Host.gather gather_S100000_S1700000x1_S1700000_n_0_n_n_0_1_1 dis (wrap (F := F) col))

/-- The rows of a node array gathered by every edge's source node. -/
def gatherRowsOf (h : (⟨S100000x64, .f32⟩ : BufTy).Contents (Elt F)) (row : (⟨S1700000, .i32⟩ : BufTy).Contents (Elt F)) : (⟨S1700000x64, .f32⟩ : BufTy).Contents (Elt F) :=
  Host.gather gather_S100000x64_S1700000x1_S1700000x64_1_0_n_n_0_1_164 h (wrap (F := F) row)

/-- The rows of an edge array added up by every edge's target node. -/
def aggregateOf (msg : (⟨S1700000x64, .f32⟩ : BufTy).Contents (Elt F)) (col : (⟨S1700000, .i32⟩ : BufTy).Contents (Elt F)) : (⟨S100000x64, .f32⟩ : BufTy).Contents (Elt F) :=
  Host.scatterAdd scatter_S100000x64_S1700000x1_S1700000x64_1_0_0_1 (broadcastInDim S100000x64 ![] bcast_S_S100000x64 (constant S_ .f32 0x00000000#32)) (broadcastInDim S1700000x1 ![0] bcast_S1700000_S1700000x1_0 col) msg

/-- The reference's product of the gathered rows by the edge weights, broadcast to a column and then along the features. -/
def refScale (hg : (⟨S1700000x64, .f32⟩ : BufTy).Contents (Elt F)) (n : (⟨S1700000, .f32⟩ : BufTy).Contents (Elt F)) : (⟨S1700000x64, .f32⟩ : BufTy).Contents (Elt F) :=
  mulf hg (broadcastInDim S1700000x64 ![0, 1] bcast_S1700000x1_S1700000x64_0_1 (broadcastInDim S1700000x1 ![0] bcast_S1700000_S1700000x1_0 n))

/-- The reference's sums plus the bias, the bias vector broadcast to a row and then down the rows. -/
def refBias (a : (⟨S100000x64, .f32⟩ : BufTy).Contents (Elt F)) (b : (⟨S64, .f32⟩ : BufTy).Contents (Elt F)) : (⟨S100000x64, .f32⟩ : BufTy).Contents (Elt F) :=
  addf a (broadcastInDim S100000x64 ![0, 1] bcast_S1x64_S100000x64_0_1 (broadcastInDim S1x64 ![1] bcast_S64_S1x64_1 b))

/-- The reference's clamp at zero. -/
def refRelu (z : (⟨S100000x64, .f32⟩ : BufTy).Contents (Elt F)) : (⟨S100000x64, .f32⟩ : BufTy).Contents (Elt F) :=
  maximumf z (broadcastInDim S100000x64 ![] bcast_S_S100000x64 (constant S_ .f32 0x00000000#32))

/-- Rows minus their row maxima (the maximum taken once more against −∞, as the reference does). -/
def shiftedRows (z : (⟨S100000x64, .f32⟩ : BufTy).Contents (Elt F)) : (⟨S100000x64, .f32⟩ : BufTy).Contents (Elt F) :=
  subf z (broadcastInDim S100000x64 ![0, 1] bcast_S100000x1_S100000x64_0_1 (broadcastInDim S100000x1 ![0] bcast_S100000_S100000x1_0 (maximumf (broadcastInDim S100000 ![] bcast_S_S100000 (constant S_ .f32 0xFF800000#32)) (Host.reduce FloatOps.maximumf z (constant S_ .f32 0xFF800000#32) reducesTo_S100000x64_S100000_d1 h_S_))))

/-- The reference's row-wise log-softmax: the shifted rows minus the logarithm of the row sums of their exponentials. -/
def refLogSoftmax (z : (⟨S100000x64, .f32⟩ : BufTy).Contents (Elt F)) : (⟨S100000x64, .f32⟩ : BufTy).Contents (Elt F) :=
  subf (shiftedRows (F := F) z) (broadcastInDim S100000x64 ![0, 1] bcast_S100000x1_S100000x64_0_1 (Host.log (broadcastInDim S100000x1 ![0] bcast_S100000_S100000x1_0 (Host.reduceAdd (Host.exp (shiftedRows (F := F) z)) (constant S_ .f32 0x00000000#32) reducesTo_S100000x64_S100000_d1 h_S_))))

/-- The reference's result as a function of its four arguments. -/
def refOut (x : (⟨S100000x128, .f32⟩ : BufTy).Contents (Elt F)) (e : (⟨S2x1600000, .i32⟩ : BufTy).Contents (Elt F))
    (w : (⟨S128x64, .f32⟩ : BufTy).Contents (Elt F)) (b : (⟨S64, .f32⟩ : BufTy).Contents (Elt F)) : (⟨S100000x64, .f32⟩ : BufTy).Contents (Elt F) :=
  refLogSoftmax (F := F) (refRelu (F := F) (refBias (F := F)
    (aggregateOf (F := F)
      (refScale (F := F)
        (gatherRowsOf (F := F) (Host.dotGeneral dot_S100000x128_S128x64_S100000x64_1_0_0_1_n_n none x w) (rowIdx (F := F) e))
        (weightOf (F := F) (disOf (F := F) (colIdx (F := F) e)) (rowIdx (F := F) e) (colIdx (F := F) e)))
      (colIdx (F := F) e))
    b))

end Cert.ReferenceIdeal.Ops

end
-- ==== Proof.RefStagesA.lean ====
/-
  The reference's first 53 host operations, read as the named stages.

  From the edge list the reference forms the source node and the target node of every edge (the given edges, then one
  self-loop per node); from the target nodes the in-degree of every node, the inverse square root of each positive degree
  and zero elsewhere; from that and both ends of every edge the edge's weight; it gathers the rows of x·w by source node
  and multiplies each by its edge's weight, broadcast along the 64 features. The operations are cut into four short
  stretches, each read at the buffers it writes as a function of the buffers it reads, for arbitrary contents of those;
  the stretches are then chained: what a later stretch reads is what an earlier one wrote, or an argument no stretch writes.
-/
import proofs.«128410_j31610959299128_2_alg».proof.Proof.RefRun
import proofs.«128410_j31610959299128_2_alg».proof.Proof.RefOps

noncomputable section

namespace Cert.ReferenceIdeal.StagesA

open Cert.ReferenceIdeal Cert.ReferenceIdeal.Gen Cert.ReferenceIdeal.RunP Cert.ReferenceIdeal.Ops
open Idealize.ShloMosaic Idealize.ShloMosaic.TcCoe Idealize.SL.Sem Idealize.ShloMosaic.StableHlo

variable {F : FTy → Type} [FloatOps F]

/-- Operations run one list after the other are the two lists run as one. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The first eight operations: the matrix product, and the two ends of every edge (the given edges, then one
    self-loop per node). -/
abbrev edgesOps : List (HloOp τ sig (Elt F)) :=
  [ binary main_arg0 main_arg2 main_v0 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    unary main_arg1 main_v3 ((extractStridedSlice S1x1600000 ![1, 0] · slices_S2x1600000_S1x1600000_1_0) : (⟨S2x1600000, .i32⟩ : BufTy).Contents (Elt F) → (⟨S1x1600000, .i32⟩ : BufTy).Contents (Elt F)),
    reshape main_v3 main_v4 rfl shapeCasts_S1x1600000_S1600000,
    nullary main_v5 (iotaInDim S100000 32 0),
    binary main_v2 main_v5 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_v4 main_v5 main_v7 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)) ]

/-- The next eleven: the in-degrees (ones added up by target node), the test that a degree is positive, the inverse
    square roots of the degrees, and a zero. -/
abbrev degreeOps : List (HloOp τ sig (Elt F)) :=
  [ nullary main_cst (constant S_ .f32 0x3F800000#32),
    unary main_cst main_v8 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v7 main_v10 (broadcastInDim S1700000x1 ![0] bcast_S1700000_S1700000x1_0 : (⟨S1700000, .i32⟩ : BufTy).Contents (Elt F) → (⟨S1700000x1, .i32⟩ : BufTy).Contents (Elt F)),
    ternary main_v9 main_v10 main_v8 main_v11 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (cmpf .ogt : (⟨S100000, .f32⟩ : BufTy).Contents (Elt F) → (⟨S100000, .f32⟩ : BufTy).Contents (Elt F) → (⟨S100000, .i1⟩ : BufTy).Contents (Elt F)),
    unary main_v11 main_v14 (Host.rsqrt : (⟨S100000, .f32⟩ : BufTy).Contents (Elt F) → (⟨S100000, .f32⟩ : BufTy).Contents (Elt F)),
    nullary main_cst_2 (constant S_ .f32 0x00000000#32) ]

/-- The next three: the inverse square root where the degree is positive, the zero elsewhere. -/
abbrev whereOps : List (HloOp τ sig (Elt F)) :=
  [ TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v13) (TRef.of (T := ⟨S100000, .f32⟩) main_v14) (TRef.of (T := ⟨S100000, .f32⟩) main_call0_v1) (TRef.of (T := ⟨S100000, .f32⟩) main_v15) select ]

/-- The next thirty-one: the weight of every edge from its two ends, the rows gathered by source node, and their
    product with the weights broadcast along the features. -/
abbrev scaleOps : List (HloOp τ sig (Elt F)) :=
  [ nullary main_c (constantI S_ 32 0#32),
    unary main_c main_v16 (broadcastInDim S1700000 ![] bcast_S_S1700000 : (⟨S_, .i32⟩ : BufTy).Contents (Elt F) → (⟨S1700000, .i32⟩ : BufTy).Contents (Elt F)),
    binary main_v6 main_v16 main_v17 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v18 (broadcastInDim S1700000 ![] bcast_S_S1700000 : (⟨S_, .i32⟩ : BufTy).Contents (Elt F) → (⟨S1700000, .i32⟩ : BufTy).Contents (Elt F)),
    binary main_v6 main_v18 main_v19 (addi : (⟨S1700000, .i32⟩ : BufTy).Contents (Elt F) → (⟨S1700000, .i32⟩ : BufTy).Contents (Elt F) → (⟨S1700000, .i32⟩ : BufTy).Contents (Elt F)),
    ternary main_v17 main_v19 main_v6 main_v20 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v20 main_v21 (broadcastInDim S1700000x1 ![0] bcast_S1700000_S1700000x1_0 : (⟨S1700000, .i32⟩ : BufTy).Contents (Elt F) → (⟨S1700000x1, .i32⟩ : BufTy).Contents (Elt F)),
    binary main_v15 main_v21 main_v22 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v23 (broadcastInDim S1700000 ![] bcast_S_S1700000 : (⟨S_, .i32⟩ : BufTy).Contents (Elt F) → (⟨S1700000, .i32⟩ : BufTy).Contents (Elt F)),
    binary main_v7 main_v23 main_v24 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v25 (broadcastInDim S1700000 ![] bcast_S_S1700000 : (⟨S_, .i32⟩ : BufTy).Contents (Elt F) → (⟨S1700000, .i32⟩ : BufTy).Contents (Elt F)),
    binary main_v7 main_v25 main_v26 (addi : (⟨S1700000, .i32⟩ : BufTy).Contents (Elt F) → (⟨S1700000, .i32⟩ : BufTy).Contents (Elt F) → (⟨S1700000, .i32⟩ : BufTy).Contents (Elt F)),
    ternary main_v24 main_v26 main_v7 main_v27 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v27 main_v28 (broadcastInDim S1700000x1 ![0] bcast_S1700000_S1700000x1_0 : (⟨S1700000, .i32⟩ : BufTy).Contents (Elt F) → (⟨S1700000x1, .i32⟩ : BufTy).Contents (Elt F)),
    binary main_v15 main_v28 main_v29 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v22 main_v29 main_v30 (mulf : (⟨S1700000, .f32⟩ : BufTy).Contents (Elt F) → (⟨S1700000, .f32⟩ : BufTy).Contents (Elt F) → (⟨S1700000, .f32⟩ : BufTy).Contents (Elt F)),
    nullary main_c_6 (constantI S_ 32 0#32),
    unary main_c_6 main_v31 (broadcastInDim S1700000 ![] bcast_S_S1700000 : (⟨S_, .i32⟩ : BufTy).Contents (Elt F) → (⟨S1700000, .i32⟩ : BufTy).Contents (Elt F)),
    binary main_v6 main_v31 main_v32 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v33 (broadcastInDim S1700000 ![] bcast_S_S1700000 : (⟨S_, .i32⟩ : BufTy).Contents (Elt F) → (⟨S1700000, .i32⟩ : BufTy).Contents (Elt F)),
    binary main_v6 main_v33 main_v34 (addi : (⟨S1700000, .i32⟩ : BufTy).Contents (Elt F) → (⟨S1700000, .i32⟩ : BufTy).Contents (Elt F) → (⟨S1700000, .i32⟩ : BufTy).Contents (Elt F)),
    ternary main_v32 main_v34 main_v6 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v35 main_v36 (broadcastInDim S1700000x1 ![0] bcast_S1700000_S1700000x1_0 : (⟨S1700000, .i32⟩ : BufTy).Contents (Elt F) → (⟨S1700000x1, .i32⟩ : BufTy).Contents (Elt F)),
    binary main_v0 main_v36 main_v37 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v30 main_v38 (broadcastInDim S1700000x1 ![0] bcast_S1700000_S1700000x1_0 : (⟨S1700000, .f32⟩ : BufTy).Contents (Elt F) → (⟨S1700000x1, .f32⟩ : BufTy).Contents (Elt F)),
    unary main_v38 main_v39 (broadcastInDim S1700000x64 ![0, 1] bcast_S1700000x1_S1700000x64_0_1 : (⟨S1700000x1, .f32⟩ : BufTy).Contents (Elt F) → (⟨S1700000x64, .f32⟩ : BufTy).Contents (Elt F)),
    binary main_v37 main_v39 main_v40 (mulf : (⟨S1700000x64, .f32⟩ : BufTy).Contents (Elt F) → (⟨S1700000x64, .f32⟩ : BufTy).Contents (Elt F) → (⟨S1700000x64, .f32⟩ : BufTy).Contents (Elt F)) ]

set_option maxRecDepth 8192 in
/-- The first 53 operations are those four stretches in order. -/
theorem take_eq : (ops (F := F)).take 53 = edgesOps ++ (degreeOps ++ (whereOps ++ scaleOps)) := rfl

section Stretches
variable (Y : Valuation τ sig (Elt F))

/-! ## The first stretch, from the arguments -/

theorem edges_v0 : after (edgesOps (F := F)) Y (Proc.devRef .tc main_v0)
    = Host.dotGeneral dot_S100000x128_S128x64_S100000x64_1_0_0_1_n_n none (Y (Proc.devRef .tc main_arg0)) (Y (Proc.devRef .tc main_arg2)) := by
  after_results <;> rfl

theorem edges_v6 : after (edgesOps (F := F)) Y (Proc.devRef .tc main_v6) = rowIdx (Y (Proc.devRef .tc main_arg1)) := by
  after_results <;> rfl

theorem edges_v7 : after (edgesOps (F := F)) Y (Proc.devRef .tc main_v7) = colIdx (Y (Proc.devRef .tc main_arg1)) := by
  after_results <;> rfl

theorem edges_arg3 : after (edgesOps (F := F)) Y (Proc.devRef .tc main_arg3) = Y (Proc.devRef .tc main_arg3) := by
  after_results

/-! ## The degrees, from the target nodes -/

theorem degree_v13 : after (degreeOps (F := F)) Y (Proc.devRef .tc main_v13) = positiveOf (F := F) (Y (Proc.devRef .tc main_v7)) := by
  after_results <;> rfl

theorem degree_v14 : after (degreeOps (F := F)) Y (Proc.devRef .tc main_v14) = Host.rsqrt (degreeOf (F := F) (Y (Proc.devRef .tc main_v7))) := by
  after_results <;> rfl

theorem degree_cst2 : after (degreeOps (F := F)) Y (Proc.devRef .tc main_cst_2) = constant (F := F) S_ .f32 0x00000000#32 := by
  after_results <;> rfl

theorem degree_v0 : after (degreeOps (F := F)) Y (Proc.devRef .tc main_v0) = Y (Proc.devRef .tc main_v0) := by
  after_results

theorem degree_v6 : after (degreeOps (F := F)) Y (Proc.devRef .tc main_v6) = Y (Proc.devRef .tc main_v6) := by
  after_results

theorem degree_v7 : after (degreeOps (F := F)) Y (Proc.devRef .tc main_v7) = Y (Proc.devRef .tc main_v7) := by
  after_results

theorem degree_arg3 : after (degreeOps (F := F)) Y (Proc.devRef .tc main_arg3) = Y (Proc.devRef .tc main_arg3) := by
  after_results

/-! ## The select between the inverse square root and the zero -/

theorem where_v15 : after (whereOps (F := F)) Y (Proc.devRef .tc main_v15)
    = select (Y (Proc.devRef .tc main_v13)) (Y (Proc.devRef .tc main_v14)) (broadcastInDim S100000 ![] bcast_S_S100000 (id (Y (Proc.devRef .tc main_cst_2)))) := by
  after_results <;> rfl

theorem where_v0 : after (whereOps (F := F)) Y (Proc.devRef .tc main_v0) = Y (Proc.devRef .tc main_v0) := by
  after_results

theorem where_v6 : after (whereOps (F := F)) Y (Proc.devRef .tc main_v6) = Y (Proc.devRef .tc main_v6) := by
  after_results

theorem where_v7 : after (whereOps (F := F)) Y (Proc.devRef .tc main_v7) = Y (Proc.devRef .tc main_v7) := by
  after_results

theorem where_arg3 : after (whereOps (F := F)) Y (Proc.devRef .tc main_arg3) = Y (Proc.devRef .tc main_arg3) := by
  after_results

/-! ## The weights, the gathered rows and their product -/

set_option maxHeartbeats 4000000 in
theorem scale_v40 : after (scaleOps (F := F)) Y (Proc.devRef .tc main_v40)
    = refScale (F := F) (gatherRowsOf (F := F) (Y (Proc.devRef .tc main_v0)) (Y (Proc.devRef .tc main_v6)))
        (weightOf (F := F) (Y (Proc.devRef .tc main_v15)) (Y (Proc.devRef .tc main_v6)) (Y (Proc.devRef .tc main_v7))) := by
  after_results_simp <;> rfl

set_option maxHeartbeats 4000000 in
theorem scale_v7 : after (scaleOps (F := F)) Y (Proc.devRef .tc main_v7) = Y (Proc.devRef .tc main_v7) := by
  after_results_simp

set_option maxHeartbeats 4000000 in
theorem scale_arg3 : after (scaleOps (F := F)) Y (Proc.devRef .tc main_arg3) = Y (Proc.devRef .tc main_arg3) := by
  after_results_simp

end Stretches

section Chain
variable (V : Valuation τ sig (Elt F))

/-- After the first 53 operations the product buffer holds the rows of x·w gathered by source node, each times its
    edge's weight: the weight is the product of the two ends' inverse-square-root degrees, the degrees counted from
    the target nodes. -/
theorem msg : after ((ops (F := F)).take 53) V (Proc.devRef .tc main_v40)
    = refScale (F := F)
        (gatherRowsOf (F := F)
          (Host.dotGeneral dot_S100000x128_S128x64_S100000x64_1_0_0_1_n_n none (V (Proc.devRef .tc main_arg0)) (V (Proc.devRef .tc main_arg2)))
          (rowIdx (F := F) (V (Proc.devRef .tc main_arg1))))
        (weightOf (F := F) (disOf (F := F) (colIdx (F := F) (V (Proc.devRef .tc main_arg1))))
          (rowIdx (F := F) (V (Proc.devRef .tc main_arg1))) (colIdx (F := F) (V (Proc.devRef .tc main_arg1)))) := by
  rw [take_eq, after_append, after_append, after_append, scale_v40,
    where_v0, where_v6, where_v7, where_v15,
    degree_v0, degree_v6, degree_v7, degree_v13, degree_v14, degree_cst2,
    edges_v0, edges_v6, edges_v7]
  rfl

/-- The target nodes are still in their buffer after the first 53 operations. -/
theorem col : after ((ops (F := F)).take 53) V (Proc.devRef .tc main_v7) = colIdx (F := F) (V (Proc.devRef .tc main_arg1)) := by
  rw [take_eq, after_append, after_append, after_append, scale_v7, where_v7, degree_v7, edges_v7]

/-- The bias is untouched by the first 53 operations. -/
theorem bias : after ((ops (F := F)).take 53) V (Proc.devRef .tc main_arg3) = V (Proc.devRef .tc main_arg3) := by
  rw [take_eq, after_append, after_append, after_append, scale_arg3, where_arg3, degree_arg3, edges_arg3]

end Chain

end Cert.ReferenceIdeal.StagesA

end
-- ==== Proof.Spec.lean ====
/-
  What the graph-convolution layer computes, written once, index by index, on the extended reals
  (the values at which both idealized programs are read).

  With N = 100000 nodes, L = 1700000 edges (the given ones and one self-loop per node), 128 input and 64 output features:

  * `project x w` is the feature transform h = x·w: h[r, j] = Σ_k x[r, k] · w[k, j].
  * `scale h n` multiplies every gathered row by that edge's normalisation weight: msg[e, j] = h[e, j] · n[e, 0].
  * `logSoftmaxRelu a b` adds the bias to the aggregated rows, clamps at zero, and takes the row-wise log-softmax
    in its max-shifted form: with z[r, j] = max (a[r, j] + b[0, j]) 0 and M[r] = max_j z[r, j],
    out[r, j] = (z[r, j] − M[r]) − log Σ_j' exp (z[r, j'] − M[r]).

  The gather of rows by source node, the edge weights from the in-degrees, and the scatter-add by target node are the same
  host operations in both programs and are not restated here.
-/
import Idealize.ShloMosaic.PureOps.Ideal
import Idealize.ShloMosaic.Lib.ValueIdx

noncomputable section

open scoped BigOperators

namespace Cert.Spec

open Idealize.ShloMosaic Idealize.ShloMosaic.ValueIdx

/-- A rank-2 array of extended reals of the given extents. -/
abbrev Arr (n0 n1 : Nat) : Type := (⟨2, ![n0, n1]⟩ : Shape).Idx → EReal

/-- The feature transform: h[r, j] = Σ_k x[r, k] · w[k, j]. -/
def project (x : Arr 100000 128) (w : Arr 128 64) : Arr 100000 64 :=
  fun i => ∑ k : Fin 128, x (ix2 (i 0) k) * w (ix2 k (i 1))

/-- Every row of the gathered features times its edge's weight: msg[e, j] = h[e, j] · n[e, 0]. -/
def scale (h : Arr 1700000 64) (n : Arr 1700000 1) : Arr 1700000 64 :=
  fun i => h i * n (ix2 (i 0) 0)

/-- The biased and clamped entry z[r, j] = max (a[r, j] + b[0, j]) 0 (the zero written as its float word). -/
def clamped (a : Arr 100000 64) (b : Arr 1 64) (r : Fin 100000) (j : Fin 64) : EReal :=
  max (a (ix2 r j) + b (ix2 0 j)) (Ideal.ofBits .f32 0x00000000#32)

/-- The row maximum M[r] = max_j z[r, j], folded from −∞ (written as its float word). -/
def rowMax (a : Arr 100000 64) (b : Arr 1 64) (r : Fin 100000) : EReal :=
  (Finset.univ : Finset (Fin 64)).fold max (Ideal.ofBits .f32 0xFF800000#32) (fun j => clamped a b r j)

/-- The layer's output: out[r, j] = (z[r, j] − M[r]) − log Σ_j' exp (z[r, j'] − M[r]). -/
def logSoftmaxRelu (a : Arr 100000 64) (b : Arr 1 64) : Arr 100000 64 :=
  fun i => (clamped a b (i 0) (i 1) - rowMax a b (i 0))
    - Ideal.log (∑ j : Fin 64, Ideal.exp (clamped a b (i 0) j - rowMax a b (i 0)))

end Cert.Spec

end
-- ==== Proof.ActRef.lean ====
/-
  The reference's last three statements — the bias add and clamp at zero, the shift by the row maximum, and the
  subtraction of the log of the row's sum of exponentials — read at the extended reals, index by index, are
  the layer's output as Cert.Spec.logSoftmaxRelu states it.

  With z[r, j] = max (a[r, j] + b[0, j]) 0:
  * the row maximum is folded from −∞ and then joined once more with −∞, which changes nothing: M[r] = max_j z[r, j];
  * the sum of exponentials starts from the float zero, which is 0: S[r] = Σ_j exp (z[r, j] − M[r]);
  * the output is (z[r, j] − M[r]) − log S[r].
-/
import proofs.«128410_j31610959299128_2_alg».proof.Proof.Gen.ReferenceIdeal
import proofs.«128410_j31610959299128_2_alg».proof.Proof.Spec
import Idealize.ShloMosaic.Lib.Pipeline.Value
import Idealize.ShloMosaic.Lib.ValueIdx
import Idealize.ShloMosaic.PureOps.Ideal.Laws
import Idealize.ShloMosaic.PureOps.Reduce

noncomputable section

open scoped BigOperators

namespace Cert.ReferenceIdeal.ActRef

open Cert.ReferenceIdeal Cert.ReferenceIdeal.Gen Idealize.ShloMosaic Idealize.ShloMosaic.ValueIdx

variable {F : FTy → Type} [FloatOps F]

/-- z = max (a + b broadcast over the rows) 0. -/
def relu (a : FVec F S100000x64 .f32) (b1 : FVec F S1x64 .f32) : FVec F S100000x64 .f32 :=
  maximumf (addf a (broadcastInDim S100000x64 ![0, 1] bcast_S1x64_S100000x64_0_1 b1)) (broadcastInDim S100000x64 ![] bcast_S_S100000x64 (constant S_ .f32 0x00000000#32))

/-- z − M, with M the row maximum (joined once more with −∞) kept as a column and broadcast back over the row. -/
def shifted (a : FVec F S100000x64 .f32) (b1 : FVec F S1x64 .f32) : FVec F S100000x64 .f32 :=
  subf (relu a b1) (broadcastInDim S100000x64 ![0, 1] bcast_S100000x1_S100000x64_0_1 (broadcastInDim S100000x1 ![0] bcast_S100000_S100000x1_0 (maximumf (broadcastInDim S100000 ![] bcast_S_S100000 (constant S_ .f32 0xFF800000#32)) (Host.reduce FloatOps.maximumf (relu a b1) (constant S_ .f32 0xFF800000#32) reducesTo_S100000x64_S100000_d1 h_S_))))

/-- (z − M) − log Σ exp (z − M), the sum kept as a column and broadcast back over the row. -/
def act (a : FVec F S100000x64 .f32) (b1 : FVec F S1x64 .f32) : FVec F S100000x64 .f32 :=
  subf (shifted a b1) (broadcastInDim S100000x64 ![0, 1] bcast_S100000x1_S100000x64_0_1 (Host.log (broadcastInDim S100000x1 ![0] bcast_S100000_S100000x1_0 (Host.reduceAdd (Host.exp (shifted a b1)) (constant S_ .f32 0x00000000#32) reducesTo_S100000x64_S100000_d1 h_S_))))

/-! ## The layout operations read at an index -/

/-- The bias row broadcast over the rows, read at (r, j), is b[0, j]. -/
theorem bias_apply {α : Type} (b1 : S1x64.Idx → α) (r : Fin 100000) (j : Fin 64) :
    broadcastInDim S100000x64 ![0, 1] bcast_S1x64_S100000x64_0_1 b1 (ix2 r j) = b1 (ix2 0 j) :=
  broadcastInDim_apply _ bcast_S1x64_S100000x64_0_1 b1 (ix2 r j) (ix2 0 j) (fun ax => match ax with
    | ⟨0, _⟩ => by show 0 = if (1 : Nat) = 1 then 0 else r.val; rw [if_pos rfl]
    | ⟨1, _⟩ => by show j.val = if (64 : Nat) = 1 then 0 else j.val; rw [if_neg (by decide)])

/-- A scalar broadcast to the whole array is that scalar everywhere. -/
theorem splat2_apply {α : Type} (y : S_.Idx → α) (i : S100000x64.Idx) :
    broadcastInDim S100000x64 ![] bcast_S_S100000x64 y i = y ix0 :=
  broadcastInDim_apply _ bcast_S_S100000x64 y i ix0 (fun ax => ax.elim0)

/-- A scalar broadcast to a vector of one entry per row is that scalar everywhere. -/
theorem splat1_apply {α : Type} (y : S_.Idx → α) (i : S100000.Idx) :
    broadcastInDim S100000 ![] bcast_S_S100000 y i = y ix0 :=
  broadcastInDim_apply _ bcast_S_S100000 y i ix0 (fun ax => ax.elim0)

/-- A per-row vector kept as a column and broadcast back over the row, read at (r, j), is the vector at r. -/
theorem column_apply {α : Type} (v : S100000.Idx → α) (r : Fin 100000) (j : Fin 64) :
    broadcastInDim S100000x64 ![0, 1] bcast_S100000x1_S100000x64_0_1
      (broadcastInDim S100000x1 ![0] bcast_S100000_S100000x1_0 v) (ix2 r j) = v (ix1 r) := by
  rw [broadcastInDim_apply _ bcast_S100000x1_S100000x64_0_1 _ (ix2 r j) (ix2 r (0 : Fin 1)) (fun ax => match ax with
    | ⟨0, _⟩ => by show r.val = if (100000 : Nat) = 1 then 0 else r.val; rw [if_neg (by decide)]
    | ⟨1, _⟩ => by show 0 = if (1 : Nat) = 1 then 0 else j.val; rw [if_pos rfl])]
  exact broadcastInDim_apply _ bcast_S100000_S100000x1_0 v (ix2 r (0 : Fin 1)) (ix1 r) (fun ax => match ax with
    | ⟨0, _⟩ => by show r.val = if (100000 : Nat) = 1 then 0 else r.val; rw [if_neg (by decide)])

/-- The row index r with column k put back is (r, k). -/
theorem lift_row (h : S100000x64.Reduces [1] S100000) (r : Fin 100000) (k : Fin (S100000x64.size 1)) :
    h.lift (ix1 r) k = ix2 r (⟨k.val, k.isLt⟩ : Fin 64) := by
  funext c; apply Fin.ext
  match c with
  | ⟨0, _⟩ => rfl
  | ⟨1, _⟩ => rfl

theorem reduces_d1 : S100000x64.Reduces [1] S100000 := by decide

/-! ## The three statements at an index -/

/-- z[r, j] = max (a[r, j] + b[0, j]) 0. -/
theorem relu_apply (a : FVec Ideal S100000x64 .f32) (b1 : FVec Ideal S1x64 .f32) (r : Fin 100000) (j : Fin 64) :
    relu (F := Ideal) a b1 (ix2 r j) = Cert.Spec.clamped a b1 r j := by
  unfold relu Cert.Spec.clamped
  rw [maximumf_apply, addf_apply, bias_apply, splat2_apply]
  rfl

/-- Joining −∞ with y gives y. -/
theorem max_negInf (y : EReal) : max (Ideal.ofBits .f32 0xFF800000#32) y = y := by
  simp [Ideal.ofBits, Ideal.ieee]

/-- The host's reduce with a maximum body from −∞ over a row of z is the row maximum M[r]. -/
theorem hostMax_apply (a : FVec Ideal S100000x64 .f32) (b1 : FVec Ideal S1x64 .f32) (r : Fin 100000) :
    Host.reduce FloatOps.maximumf (relu (F := Ideal) a b1) (constant S_ .f32 0xFF800000#32)
      reducesTo_S100000x64_S100000_d1 h_S_ (ix1 r) = Cert.Spec.rowMax a b1 r := by
  rw [Host.reduce_eq_fold_single FloatOps.maximumf (relu (F := Ideal) a b1) _ reducesTo_S100000x64_S100000_d1 reduces_d1 h_S_]
  unfold Cert.Spec.rowMax
  have hf : (relu (F := Ideal) a b1 ∘ reduces_d1.lift (ix1 r)) = fun j : Fin 64 => Cert.Spec.clamped a b1 r j :=
    funext fun k => (congrArg (relu (F := Ideal) a b1) (lift_row reduces_d1 r k)).trans (relu_apply a b1 r k)
  exact congrArg (fun f => Finset.fold max (Ideal.ofBits .f32 0xFF800000#32) f (Finset.univ : Finset (Fin 64))) hf

/-- (z − M)[r, j]. -/
theorem shifted_apply (a : FVec Ideal S100000x64 .f32) (b1 : FVec Ideal S1x64 .f32) (r : Fin 100000) (j : Fin 64) :
    shifted (F := Ideal) a b1 (ix2 r j) = Cert.Spec.clamped a b1 r j - Cert.Spec.rowMax a b1 r := by
  unfold shifted
  rw [subf_apply, relu_apply, column_apply, maximumf_apply, splat1_apply, hostMax_apply]
  exact congrArg (Cert.Spec.clamped a b1 r j - ·) (max_negInf _)

/-- The host's sum from the float zero over a row of exp (z − M) is Σ_j exp (z[r, j] − M[r]). -/
theorem hostSum_apply (a : FVec Ideal S100000x64 .f32) (b1 : FVec Ideal S1x64 .f32) (r : Fin 100000) :
    Host.reduceAdd (Host.exp (shifted (F := Ideal) a b1)) (constant S_ .f32 0x00000000#32)
      reducesTo_S100000x64_S100000_d1 h_S_ (ix1 r)
      = ∑ j : Fin 64, Ideal.exp (Cert.Spec.clamped a b1 r j - Cert.Spec.rowMax a b1 r) := by
  simp only [Host.reduceAdd, Ideal.hostReduceAdd_def]
  rw [Ideal.hostReduceAdd_single reducesTo_S100000x64_S100000_d1 reduces_d1]
  rw [constant_apply, Ideal.ofBits_zero_f32, zero_add]
  refine Finset.sum_congr rfl fun k _ => ?_
  rw [lift_row reduces_d1 r k]
  exact congrArg Ideal.exp (shifted_apply a b1 r ⟨k.val, k.isLt⟩)

/-- The log of a per-row vector kept as a column and broadcast back over the row, read at (r, j), is the log of the
    vector at r. -/
theorem logColumn_apply (v : FVec Ideal S100000 .f32) (r : Fin 100000) (j : Fin 64) :
    broadcastInDim S100000x64 ![0, 1] bcast_S100000x1_S100000x64_0_1
      (Host.log (broadcastInDim S100000x1 ![0] bcast_S100000_S100000x1_0 v)) (ix2 r j) = Ideal.log (v (ix1 r)) := by
  rw [broadcastInDim_apply _ bcast_S100000x1_S100000x64_0_1 _ (ix2 r j) (ix2 r (0 : Fin 1)) (fun ax => match ax with
    | ⟨0, _⟩ => by show r.val = if (100000 : Nat) = 1 then 0 else r.val; rw [if_neg (by decide)]
    | ⟨1, _⟩ => by show 0 = if (1 : Nat) = 1 then 0 else j.val; rw [if_pos rfl])]
  exact congrArg Ideal.log (broadcastInDim_apply _ bcast_S100000_S100000x1_0 v (ix2 r (0 : Fin 1)) (ix1 r) (fun ax => match ax with
    | ⟨0, _⟩ => by show r.val = if (100000 : Nat) = 1 then 0 else r.val; rw [if_neg (by decide)]))

/-- The reference's output at (r, j): (z[r, j] − M[r]) − log Σ_j' exp (z[r, j'] − M[r]). -/
theorem act_apply (a : FVec Ideal S100000x64 .f32) (b1 : FVec Ideal S1x64 .f32) (r : Fin 100000) (j : Fin 64) :
    act (F := Ideal) a b1 (ix2 r j) = (Cert.Spec.clamped a b1 r j - Cert.Spec.rowMax a b1 r)
      - Ideal.log (∑ j' : Fin 64, Ideal.exp (Cert.Spec.clamped a b1 r j' - Cert.Spec.rowMax a b1 r)) := by
  unfold act
  rw [subf_apply, shifted_apply, logColumn_apply, hostSum_apply]

/-- The reference's output is the specification's. -/
theorem act_eq (a : FVec Ideal S100000x64 .f32) (b1 : FVec Ideal S1x64 .f32) :
    act (F := Ideal) a b1 = Cert.Spec.logSoftmaxRelu a b1 :=
  funext fun i => (congrArg (act (F := Ideal) a b1) (eq_ix2 (n0 := 100000) (n1 := 64) i)).trans (act_apply a b1 (i 0) (i 1))

end Cert.ReferenceIdeal.ActRef

end
-- ==== Proof.RefStagesB.lean ====
/-
  The reference's last stage read off its operations: from the product of the gathered rows by the weights, the rows added
  up by target node, plus the bias, clamped at zero, and the row-wise log-softmax.

  The operations are cut into short stretches; for ANY contents of the buffers before a stretch, the buffer the stretch ends
  at holds the named stage of the buffers it reads. The stretches chained give the result buffer.
-/
import proofs.«128410_j31610959299128_2_alg».proof.Proof.RefRun
import proofs.«128410_j31610959299128_2_alg».proof.Proof.RefOps
import proofs.«128410_j31610959299128_2_alg».proof.Proof.ActRef

noncomputable section

namespace Cert.ReferenceIdeal.StagesB

open Cert.ReferenceIdeal Cert.ReferenceIdeal.Gen Cert.ReferenceIdeal.RunP Cert.ReferenceIdeal.Ops Idealize.ShloMosaic Idealize.ShloMosaic.TcCoe Idealize.SL.Sem Idealize.ShloMosaic.StableHlo

variable {F : FTy → Type} [FloatOps F]

/-- Two lines folded one after the other are their concatenation folded as one. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The sums by target node and the bias: operations 53 … 59. -/
abbrev opsBias : List (HloOp τ sig (Elt F)) :=
  [
    nullary main_cst_8 (constant S_ .f32 0x00000000#32),
    unary main_cst_8 main_v41 (broadcastInDim S100000x64 ![] bcast_S_S100000x64 : (⟨S_, .f32⟩ : BufTy).Contents (Elt F) → (⟨S100000x64, .f32⟩ : BufTy).Contents (Elt F)),
    unary main_v7 main_v42 (broadcastInDim S1700000x1 ![0] bcast_S1700000_S1700000x1_0 : (⟨S1700000, .i32⟩ : BufTy).Contents (Elt F) → (⟨S1700000x1, .i32⟩ : BufTy).Contents (Elt F)),
    ternary main_v41 main_v42 main_v40 main_v43 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg3 main_v44 (broadcastInDim S1x64 ![1] bcast_S64_S1x64_1 : (⟨S64, .f32⟩ : BufTy).Contents (Elt F) → (⟨S1x64, .f32⟩ : BufTy).Contents (Elt F)),
    unary main_v44 main_v45 (broadcastInDim S100000x64 ![0, 1] bcast_S1x64_S100000x64_0_1 : (⟨S1x64, .f32⟩ : BufTy).Contents (Elt F) → (⟨S100000x64, .f32⟩ : BufTy).Contents (Elt F)),
    binary main_v43 main_v45 main_v46 (addf : (⟨S100000x64, .f32⟩ : BufTy).Contents (Elt F) → (⟨S100000x64, .f32⟩ : BufTy).Contents (Elt F) → (⟨S100000x64, .f32⟩ : BufTy).Contents (Elt F)) ]

/-- The clamp at zero: operations 60 … 62. -/
abbrev opsRelu : List (HloOp τ sig (Elt F)) :=
  [
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v46) (TRef.of (T := ⟨S100000x64, .f32⟩) main_call1_v0) (TRef.of (T := ⟨S100000x64, .f32⟩) main_v47) maximumf ]

/-- The row maxima folded from −∞: operations 63, 64. -/
abbrev opsRed : List (HloOp τ sig (Elt F)) :=
  [
    TRef.nullary (TRef.of (T := ⟨S_, .f32⟩) main_call2_cst) (constant S_ .f32 0xFF800000#32),
    TRef.binary (TRef.of (T := ⟨S100000x64, .f32⟩) main_v47) (TRef.of (T := ⟨S_, .f32⟩) main_call2_cst) (TRef.of (T := ⟨S100000, .f32⟩) main_call2_v0) (fun x v => Host.reduce FloatOps.maximumf x v reducesTo_S100000x64_S100000_d1 h_S_) ]

/-- The maximum taken once more against −∞: operations 65 … 67. -/
abbrev opsMax : List (HloOp τ sig (Elt F)) :=
  [
    TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf ]

/-- The rows minus their maxima: operations 68 … 70. -/
abbrev opsSub : List (HloOp τ sig (Elt F)) :=
  [
    TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x64, .f32⟩) main_call2_v4) (broadcastInDim S100000x64 ![0, 1] bcast_S100000x1_S100000x64_0_1),
    TRef.binary (TRef.of (T := ⟨S100000x64, .f32⟩) main_v47) (TRef.of (T := ⟨S100000x64, .f32⟩) main_call2_v4) (TRef.of (T := ⟨S100000x64, .f32⟩) main_call2_v5) subf ]

/-- The logarithm of the row sums of the exponentials, subtracted: operations 71 … 77. -/
abbrev opsLogSum : List (HloOp τ sig (Elt F)) :=
  [
    TRef.unary (TRef.of (T := ⟨S100000x64, .f32⟩) main_call2_v5) (TRef.of (T := ⟨S100000x64, .f32⟩) main_call2_v6) Host.exp,
    TRef.nullary (TRef.of (T := ⟨S_, .f32⟩) main_call2_cst_1) (constant S_ .f32 0x00000000#32),
    TRef.binary (TRef.of (T := ⟨S100000x64, .f32⟩) main_call2_v6) (TRef.of (T := ⟨S_, .f32⟩) main_call2_cst_1) (TRef.of (T := ⟨S100000, .f32⟩) main_call2_v7) (fun x v => Host.reduceAdd x v reducesTo_S100000x64_S100000_d1 h_S_),
    TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) Host.log,
    TRef.unary (TRef.of (T := ⟨S100000x1, .f32⟩) main_call2_v9) (TRef.of (T := ⟨S100000x64, .f32⟩) main_call2_v10) (broadcastInDim S100000x64 ![0, 1] bcast_S100000x1_S100000x64_0_1),
    TRef.binary (TRef.of (T := ⟨S100000x64, .f32⟩) main_call2_v5) (TRef.of (T := ⟨S100000x64, .f32⟩) main_call2_v10) (TRef.of (T := ⟨S100000x64, .f32⟩) main_v48) subf ]

/-- The operations from 53 on are these four stretches. -/
theorem drop_eq : (ops (F := F)).drop 53 = opsBias ++ (opsRelu ++ (opsRed ++ (opsMax ++ (opsSub ++ opsLogSum)))) := rfl

theorem bias (Y : Valuation τ sig (Elt F)) :
    after (opsBias (F := F)) Y (Proc.devRef .tc main_v46)
      = refBias (aggregateOf (Y (Proc.devRef .tc main_v40)) (Y (Proc.devRef .tc main_v7))) (Y (Proc.devRef .tc main_arg3)) := by
  unfold opsBias
  after_results
  rfl

theorem relu (Y : Valuation τ sig (Elt F)) :
    after (opsRelu (F := F)) Y (Proc.devRef .tc main_v47) = refRelu (Y (Proc.devRef .tc main_v46)) := by
  unfold opsRelu
  after_results
  rfl

/-- A per-row vector joined once more with −∞. -/
def maxNegInf (v : (⟨S100000, .f32⟩ : BufTy).Contents (Elt F)) : (⟨S100000, .f32⟩ : BufTy).Contents (Elt F) :=
  maximumf (broadcastInDim S100000 ![] bcast_S_S100000 (constant S_ .f32 0xFF800000#32)) v

/-- An array minus a per-row vector kept as a column and broadcast back along the rows. -/
def subColumn (z : (⟨S100000x64, .f32⟩ : BufTy).Contents (Elt F)) (v : (⟨S100000, .f32⟩ : BufTy).Contents (Elt F)) : (⟨S100000x64, .f32⟩ : BufTy).Contents (Elt F) :=
  subf z (broadcastInDim S100000x64 ![0, 1] bcast_S100000x1_S100000x64_0_1 (broadcastInDim S100000x1 ![0] bcast_S100000_S100000x1_0 v))

/-- The shifted rows minus the logarithm of the row sums of their exponentials. -/
def logSumOf (s : (⟨S100000x64, .f32⟩ : BufTy).Contents (Elt F)) : (⟨S100000x64, .f32⟩ : BufTy).Contents (Elt F) :=
  subf s (broadcastInDim S100000x64 ![0, 1] bcast_S100000x1_S100000x64_0_1 (Host.log (broadcastInDim S100000x1 ![0] bcast_S100000_S100000x1_0 (Host.reduceAdd (Host.exp s) (constant S_ .f32 0x00000000#32) reducesTo_S100000x64_S100000_d1 h_S_))))

/-- The row-wise log-softmax is these steps. -/
theorem refLogSoftmax_eq (z : (⟨S100000x64, .f32⟩ : BufTy).Contents (Elt F)) :
    refLogSoftmax (F := F) z = logSumOf (subColumn z (maxNegInf (Host.reduce FloatOps.maximumf z (constant S_ .f32 0xFF800000#32) reducesTo_S100000x64_S100000_d1 h_S_))) := rfl

/-- A function of the clamped array and the scalar, whatever it is, read through the buffers' own types is itself. -/
theorem read_red (g : (⟨S100000x64, .f32⟩ : BufTy).Contents (Elt F) → (⟨S_, .f32⟩ : BufTy).Contents (Elt F) → (⟨S100000, .f32⟩ : BufTy).Contents (Elt F))
    (u : (⟨S100000x64, .f32⟩ : BufTy).Contents (Elt F)) (c : (⟨S_, .f32⟩ : BufTy).Contents (Elt F)) :
    (TRef.of (T := ⟨S100000, .f32⟩) main_call2_v0).toBuf (g ((TRef.of (T := ⟨S100000x64, .f32⟩) main_v47).ofBuf u) ((TRef.of (T := ⟨S_, .f32⟩) main_call2_cst).ofBuf ((TRef.of (T := ⟨S_, .f32⟩) main_call2_cst).toBuf c))) = g u c := rfl

theorem red (Y : Valuation τ sig (Elt F)) :
    after (opsRed (F := F)) Y (Proc.devRef .tc main_call2_v0)
      = Host.reduce FloatOps.maximumf (Y (Proc.devRef .tc main_v47)) (constant S_ .f32 0xFF800000#32) reducesTo_S100000x64_S100000_d1 h_S_ := by
  unfold opsRed
  after_results
  exact read_red (fun x v => Host.reduce FloatOps.maximumf x v reducesTo_S100000x64_S100000_d1 h_S_) _ _

/-- These operations leave the clamped array in place. -/
theorem red_keep (Y : Valuation τ sig (Elt F)) :
    after (opsRed (F := F)) Y (Proc.devRef .tc main_v47) = Y (Proc.devRef .tc main_v47) := by
  unfold opsRed
  after_results

theorem max (Y : Valuation τ sig (Elt F)) :
    after (opsMax (F := F)) Y (Proc.devRef .tc main_call2_v2) = maxNegInf (Y (Proc.devRef .tc main_call2_v0)) := by
  unfold opsMax
  after_results
  rfl

theorem max_keep (Y : Valuation τ sig (Elt F)) :
    after (opsMax (F := F)) Y (Proc.devRef .tc main_v47) = Y (Proc.devRef .tc main_v47) := by
  unfold opsMax
  after_results

theorem sub (Y : Valuation τ sig (Elt F)) :
    after (opsSub (F := F)) Y (Proc.devRef .tc main_call2_v5)
      = subColumn (Y (Proc.devRef .tc main_v47)) (Y (Proc.devRef .tc main_call2_v2)) := by
  unfold opsSub
  after_results
  rfl

theorem logSum (Y : Valuation τ sig (Elt F)) :
    after (opsLogSum (F := F)) Y (Proc.devRef .tc main_v48) = logSumOf (Y (Proc.devRef .tc main_call2_v5)) := by
  unfold opsLogSum
  after_results
  rfl

/-- THE RESULT BUFFER after the operations from 53 on, for any contents before them. -/
theorem out (Y : Valuation τ sig (Elt F)) :
    after ((ops (F := F)).drop 53) Y (Proc.devRef .tc main_v48)
      = refLogSoftmax (refRelu (refBias (aggregateOf (Y (Proc.devRef .tc main_v40)) (Y (Proc.devRef .tc main_v7))) (Y (Proc.devRef .tc main_arg3)))) := by
  rw [drop_eq, after_append, after_append, after_append, after_append, after_append,
    logSum, sub, max, max_keep, red, red_keep, relu, bias, refLogSoftmax_eq]

/-- The named last stage — bias, clamp, row-wise log-softmax — is the three statements ActRef spells, the bias vector first
    broadcast to a row. -/
theorem tail_eq (a : FVec F S100000x64 .f32) (b : FVec F S64 .f32) :
    refLogSoftmax (F := F) (refRelu (F := F) (refBias (F := F) a b))
      = Cert.ReferenceIdeal.ActRef.act (F := F) a (broadcastInDim S1x64 ![1] bcast_S64_S1x64_1 b) := rfl

end Cert.ReferenceIdeal.StagesB

end
-- ==== Proof.RefValue.lean ====
/-
  The reference's operations, read in order: the result buffer ends at `Cert.ReferenceIdeal.Ops.refOut` of the four arguments.

  The fold of the 78 host operations over the launch contents is cut after the product of the gathered rows by the broadcast
  weights: what the first 53 operations leave in that product's buffer, in the target nodes' buffer and in the bias (the first
  part), and what the remaining operations make of these three (the second part: the sums by target node, the bias, the clamp
  and the row-wise log-softmax).
-/
import proofs.«128410_j31610959299128_2_alg».proof.Proof.RefRun
import proofs.«128410_j31610959299128_2_alg».proof.Proof.RefOps
import proofs.«128410_j31610959299128_2_alg».proof.Proof.RefStagesA
import proofs.«128410_j31610959299128_2_alg».proof.Proof.RefStagesB
import Idealize.ShloMosaic.PureOps.Ideal

noncomputable section

namespace Cert.ReferenceIdeal.RefValue

open Cert.ReferenceIdeal Cert.ReferenceIdeal.Gen Cert.ReferenceIdeal.RunP Cert.ReferenceIdeal.Ops
open Idealize.ShloMosaic Idealize.ShloMosaic.TcCoe Idealize.SL.Sem Idealize.ShloMosaic.StableHlo

/-- Operations run one list after the other are their concatenation run as one. -/
theorem after_split {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- The result buffer after the reference's operations is `refOut` of the argument arrays. -/
theorem res_eq (m : (ℓ : Loc nD τ sig) → Buf (Elt Ideal) ℓ) (c : Dev nD) :
    after (ops (F := Ideal)) (launchContents m c) (Proc.devRef .tc main_v48)
      = refOut (F := Ideal) (m ((c.tc : Thread nD τ).loc main_arg0)) (m ((c.tc : Thread nD τ).loc main_arg1))
          (m ((c.tc : Thread nD τ).loc main_arg2)) (m ((c.tc : Thread nD τ).loc main_arg3)) := by
  have hs : after (ops (F := Ideal)) (launchContents m c)
      = after ((ops (F := Ideal)).drop 53) (after ((ops (F := Ideal)).take 53) (launchContents m c)) :=
    (congrArg (fun l => after l (launchContents m c)) (List.take_append_drop 53 (ops (F := Ideal))).symm).trans
      (after_split _ _ _)
  rw [hs, Cert.ReferenceIdeal.StagesB.out, Cert.ReferenceIdeal.StagesA.msg, Cert.ReferenceIdeal.StagesA.col,
    Cert.ReferenceIdeal.StagesA.bias]
  rfl

end Cert.ReferenceIdeal.RefValue

end
-- ==== Proof.KernelRun.lean ====
/-
  The idealized kernel's run with its result named.

  The program is three grid launches among stretches of host operations. Its run from any memory is followed boundary by
  boundary: after the host operations before the first launch the buffers hold `W1`; each launch replaces its output array by
  what its write-backs leave and keeps every other buffer; each later stretch of host operations applies its operations to what
  it finds; the last boundary's contents are `W8`. Every weakly fair execution terminates without a fault in a state whose
  unscoped buffers hold `W8` — in particular the result buffer holds `W8` at the result, and the four arguments hold what
  they were launched with.
-/
import proofs.«128410_j31610959299128_2_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the program terminates, nothing faulting, with the result buffer at the last boundary's
    contents `W8` and the argument arrays as launched: the final state's unscoped buffers are read against `W8`, the result
    directly and each argument through the fact that no launch and no host operation writes it. -/
theorem run : θ_run defs (onTc (τ := τ) (main (F := F))) ⟨m, fun _ => 0, ρ⟩ (fun r => ∀ c : Dev nD,
      r.2.mem ((c.tc : Thread nD τ).loc main_v44) = W8 m ρ c (Proc.devRef .tc main_v44)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v44 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c)⟩)

end Cert.KernelIdeal.RunValue

end
-- ==== Proof.ProjectValue.lean ====
/-
  The feature transform h = x·w of the graph-convolution layer, read index by index on the extended reals.

  The first kernel walks the 100000 × 128 feature array in ten blocks of 10000 rows. At grid point t it multiplies row
  block t of the features (rows 10000·t … 10000·t + 9999) by the whole 128 × 64 weight array and writes the 10000 × 64
  product to row block t of the result. Entry (p, q) of that product is Σ_k x[10000·t + p, k] · w[k, q]: it depends on
  one row of the features and one column of the weights, so it is entry (10000·t + p, q) of x·w. The ten row blocks
  tile the result, each row r lying in block r / 10000, so after the last point the result array is x·w (`final`).

  The reference computes the same array with one dot_general over the contracted feature axis; read at an index it
  is the same sum (`dot_eq`).
-/
import proofs.«128410_j31610959299128_2_alg».proof.Proof.Gen.KernelIdeal.Frame
import proofs.«128410_j31610959299128_2_alg».proof.Proof.Gen.ReferenceIdeal
import proofs.«128410_j31610959299128_2_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.ProjectValue

open Cert.KernelIdeal Cert.KernelIdeal.Gen Idealize.ShloMosaic Idealize.ShloMosaic.TcCoe Idealize.SL.Sem
open Idealize.ShloMosaic.Pipeline (Dat)
open Idealize.ShloMosaic.ValueIdx

/-- An entry of the kernel's product block: row `j 0` of the left block against column `j 1` of the right
    one, summed over the 128 shared features (the change of format on the way in is the identity on the
    extended reals, and the accumulator starts at zero). -/
theorem pay_apply (x0 : Vec Ideal S10000x128 .f32) (x1 : Vec Ideal S128x64 .f32) (j : S10000x64.Idx) :
    k0_pay1 (F := Ideal) x0 x1 j = ∑ k : Fin 128, x0 (ix2 (j 0) k) * x1 (ix2 k (j 1)) := by
  unfold k0_pay1
  refine (Ideal.matmul_constant_zero_apply dot_S10000x128_S128x64_S10000x64_1_0_0_1_n_n none _ _ j).trans ?_
  rw [← Equiv.sum_comp (contrEquiv1 dot_S10000x128_S128x64_S10000x64_1_0_0_1_n_n 128 rfl rfl).symm]
  refine Finset.sum_congr rfl fun k _ => ?_
  have hk := contrEquiv1_symm_val dot_S10000x128_S128x64_S10000x64_1_0_0_1_n_n 128 rfl rfl k
  have el : dot_S10000x128_S128x64_S10000x64_1_0_0_1_n_n.lhsIdx j
      ((contrEquiv1 dot_S10000x128_S128x64_S10000x64_1_0_0_1_n_n 128 rfl rfl).symm k) = ix2 (j 0) k :=
    funext fun a => Fin.ext (by
      match a with
      | ⟨0, _⟩ =>
        show (dot_S10000x128_S128x64_S10000x64_1_0_0_1_n_n.lhsIdx j _ 0).val = (j 0).val
        unfold DotDims.lhsIdx
        rw [dif_neg (show ¬(0 : Fin S10000x128.rank) ∈ dot_S10000x128_S128x64_S10000x64_1_0_0_1_n_n.lhsBatch by decide),
          dif_pos (show (0 : Fin S10000x128.rank) ∈ dot_S10000x128_S128x64_S10000x64_1_0_0_1_n_n.lhsNonContracting by decide)]
        rfl
      | ⟨1, _⟩ => exact (dot_S10000x128_S128x64_S10000x64_1_0_0_1_n_n.lhsIdx_val_of_single rfl j _).trans hk)
  have er : dot_S10000x128_S128x64_S10000x64_1_0_0_1_n_n.rhsIdx j
      ((contrEquiv1 dot_S10000x128_S128x64_S10000x64_1_0_0_1_n_n 128 rfl rfl).symm k) = ix2 k (j 1) :=
    funext fun a => Fin.ext (by
      match a with
      | ⟨0, _⟩ => exact (dot_S10000x128_S128x64_S10000x64_1_0_0_1_n_n.rhsIdx_val_of_single rfl j _).trans hk
      | ⟨1, _⟩ =>
        show (dot_S10000x128_S128x64_S10000x64_1_0_0_1_n_n.rhsIdx j _ 1).val = (j 1).val
        unfold DotDims.rhsIdx
        rw [dif_neg (show ¬(1 : Fin S128x64.rank) ∈ dot_S10000x128_S128x64_S10000x64_1_0_0_1_n_n.rhsBatch by decide),
          dif_pos (show (1 : Fin S128x64.rank) ∈ dot_S10000x128_S128x64_S10000x64_1_0_0_1_n_n.rhsNonContracting by decide)]
        rfl)
  rw [el, er]
  rfl

/-- The reference's product of the feature matrix with the weights, entry by entry, is the feature transform:
    entry (r, j) is the sum over the 128 shared features of x[r, k] · w[k, j]. -/
theorem dot_eq (x : Cert.Spec.Arr 100000 128) (w : Cert.Spec.Arr 128 64) :
    Host.dotGeneral (F := Ideal) (φ₁ := .f32) (φ₂ := .f32)
      Cert.ReferenceIdeal.dot_S100000x128_S128x64_S100000x64_1_0_0_1_n_n none x w = Cert.Spec.project x w := by
  funext i
  simp only [Host.dotGeneral]
  rw [Ideal.dotGeneral_apply,
    ← Equiv.sum_comp (contrEquiv1 Cert.ReferenceIdeal.dot_S100000x128_S128x64_S100000x64_1_0_0_1_n_n 128 rfl rfl).symm]
  unfold Cert.Spec.project
  refine Finset.sum_congr rfl fun k _ => ?_
  have hk := contrEquiv1_symm_val Cert.ReferenceIdeal.dot_S100000x128_S128x64_S100000x64_1_0_0_1_n_n 128 rfl rfl k
  have el : Cert.ReferenceIdeal.dot_S100000x128_S128x64_S100000x64_1_0_0_1_n_n.lhsIdx i
      ((contrEquiv1 Cert.ReferenceIdeal.dot_S100000x128_S128x64_S100000x64_1_0_0_1_n_n 128 rfl rfl).symm k) = ix2 (i 0) k :=
    funext fun a => Fin.ext (by
      match a with
      | ⟨0, _⟩ =>
        show (Cert.ReferenceIdeal.dot_S100000x128_S128x64_S100000x64_1_0_0_1_n_n.lhsIdx i _ 0).val = (i 0).val
        unfold DotDims.lhsIdx
        rw [dif_neg (show ¬(0 : Fin Cert.ReferenceIdeal.S100000x128.rank) ∈ Cert.ReferenceIdeal.dot_S100000x128_S128x64_S100000x64_1_0_0_1_n_n.lhsBatch by decide),
          dif_pos (show (0 : Fin Cert.ReferenceIdeal.S100000x128.rank) ∈ Cert.ReferenceIdeal.dot_S100000x128_S128x64_S100000x64_1_0_0_1_n_n.lhsNonContracting by decide)]
        rfl
      | ⟨1, _⟩ => exact (Cert.ReferenceIdeal.dot_S100000x128_S128x64_S100000x64_1_0_0_1_n_n.lhsIdx_val_of_single rfl i _).trans hk)
  have er : Cert.ReferenceIdeal.dot_S100000x128_S128x64_S100000x64_1_0_0_1_n_n.rhsIdx i
      ((contrEquiv1 Cert.ReferenceIdeal.dot_S100000x128_S128x64_S100000x64_1_0_0_1_n_n 128 rfl rfl).symm k) = ix2 k (i 1) :=
    funext fun a => Fin.ext (by
      match a with
      | ⟨0, _⟩ => exact (Cert.ReferenceIdeal.dot_S100000x128_S128x64_S100000x64_1_0_0_1_n_n.rhsIdx_val_of_single rfl i _).trans hk
      | ⟨1, _⟩ =>
        show (Cert.ReferenceIdeal.dot_S100000x128_S128x64_S100000x64_1_0_0_1_n_n.rhsIdx i _ 1).val = (i 1).val
        unfold DotDims.rhsIdx
        rw [dif_neg (show ¬(1 : Fin Cert.ReferenceIdeal.S128x64.rank) ∈ Cert.ReferenceIdeal.dot_S100000x128_S128x64_S100000x64_1_0_0_1_n_n.rhsBatch by decide),
          dif_pos (show (1 : Fin Cert.ReferenceIdeal.S128x64.rank) ∈ Cert.ReferenceIdeal.dot_S100000x128_S128x64_S100000x64_1_0_0_1_n_n.rhsNonContracting by decide)]
        rfl)
  rw [el, er]
  rfl

section Blocks
variable (V : (c : Dev nD) → (b : Ref sig .tc) → Buf (Elt Ideal) ((c : Thread nD τ).loc b))

/-- The zero offsets of a store or load that covers its whole buffer. -/
theorem zero_off : (![0, 0] : Fin 2 → Nat) = fun _ => 0 := funext fun a => by fin_cases a <;> rfl

/-- The printed index maps over the 10 grid points: at point `t` the feature rows' block and the product's block are
    both row block `t` (column block 0), and the weights' block is the whole array. -/
theorem idx_facts : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- The node features as the region finds them, a 100000 × 128 array of extended reals. -/
abbrev feat (c : Dev nD) : Cert.Spec.Arr 100000 128 := V c main_arg0
/-- The weights as the region finds them, a 128 × 64 array of extended reals. -/
abbrev wts (c : Dev nD) : Cert.Spec.Arr 128 64 := V c main_arg2

/-- The feature transform of the arrays the region finds: what the product array ends holding. -/
abbrev G (c : Dev nD) : S100000x64.Idx → EReal :=
  Cert.Spec.project (feat V c) (wts V c)

/-- What point `t` writes back is row block `t` of the feature transform: entry (p, q) of the block is row
    10000·t + p of the features against column q of the weights. -/
theorem flushed_eq (c : Dev nD) (t : Fin cfg0.N) :
    (dat0 (F := Ideal) V c).flushed 2 t = ((cfg0.win 2).blk t).view.read (Elt Ideal) (G V c) := by
  show (cfg0.win 2).cut (grid0.coords t) ((dat0 V c).after 2 t) = _
  rw [after0_2]
  unfold out0_2
  rw [View.canon_unit_zero zero_off]
  simp only [View.ld_unit_zero (S := S10000x128) zero_off, View.ld_unit_zero (S := S128x64) zero_off]
  obtain ⟨e0, e1, e2, e3, e4, e5⟩ := idx_facts t
  funext j
  show k0_pay1 (iblk0 V c 0 t) (iblk0 V c 1 t) j = G V c (((cfg0.win 2).blk t).view.emb j)
  refine (pay_apply _ _ j).trans ?_
  show _ = ∑ k : Fin 128, feat V c (ix2 ((((cfg0.win 2).blk t).view.emb j) 0) k)
      * wts V c (ix2 k ((((cfg0.win 2).blk t).view.emb j) 1))
  refine Finset.sum_congr rfl fun k _ => ?_
  have h0 : ((cfg0.win 0).blk t).view.emb (ix2 (j 0) k) = ix2 ((((cfg0.win 2).blk t).view.emb j) 0) k := by
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * k.val = k.val; omega
  have h1 : ((cfg0.win 1).blk t).view.emb (ix2 k (j 1)) = ix2 k ((((cfg0.win 2).blk t).view.emb j) 1) := by
    funext a; apply Fin.ext
    match a with
    | ⟨0, _⟩ => show win0_1.index t (0 : Fin 2) * 128 + 1 * k.val = k.val; omega
    | ⟨1, _⟩ => show win0_1.index t (1 : Fin 2) * 64 + 1 * (j 1).val = win0_2.index t (1 : Fin 2) * 64 + 1 * (j 1).val; omega
  show feat V c (((cfg0.win 0).blk t).view.emb (ix2 (j 0) k)) * wts V c (((cfg0.win 1).blk t).view.emb (ix2 k (j 1))) = _
  rw [h0, h1]
  rfl

/-- An index of the product array is in point `t`'s block iff each coordinate is in the block's range on its axis. -/
theorem mem_blk (t : Fin cfg0.N) (i : S100000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_v7).slice (win0_2.rect t)).set ↔ _
  rw [View.set_slice_whole, Rect.mem_set_unit]
  exact Iff.rfl

/-- The ten row blocks fill the array: row `r` is in the block of point `r / 10000`. -/
theorem cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 10 := N_0
  have ht : (i 0).val / 10000 < cfg0.N := by rw [hN]; omega
  obtain ⟨e0, e1, e2, e3, e4, e5⟩ := idx_facts ⟨(i 0).val / 10000, ht⟩
  refine ⟨⟨(i 0).val / 10000, ht⟩, flush0_2 _, ?_⟩
  rw [mem_blk]
  intro a
  match a with
  | ⟨0, _⟩ =>
    show win0_2.index ⟨(i 0).val / 10000, ht⟩ (0 : Fin 2) * 10000 ≤ (i 0).val
      ∧ (i 0).val < win0_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win0_2.index ⟨(i 0).val / 10000, ht⟩ (1 : Fin 2) * 64 ≤ (i 1).val
      ∧ (i 1).val < win0_2.index ⟨(i 0).val / 10000, ht⟩ (1 : Fin 2) * 64 + 64
    rw [e5]; omega

/-- THE PRODUCT ARRAY after the region: the feature transform of the features and the weights the region finds,
    every entry written by the one point whose row block holds its row. -/
theorem final (c : Dev nD) :
    (dat0 (F := Ideal) V c).arrAt 2 cfg0.N = Cert.Spec.project (V c main_arg0) (V c main_arg2) :=
  (dat0 (F := Ideal) V c).arrAt_eq_of_cover 2 (G V c) (fun t _ => flushed_eq V c t) cover

end Blocks

end Cert.KernelIdeal.ProjectValue

end
-- ==== Proof.ScaleValue.lean ====
/-
  The edge-wise scaling launch, read as one function of the arrays it finds.

  The launch runs over 250 grid points. At point t it reads rows 6800·t … 6800·t + 6799 of the gathered features (an
  [1700000, 64] array) and the same rows of the edge weights (an [1700000, 1] column), multiplies every row by its weight, and
  writes the product back to the same rows of the result. The 250 row blocks tile the result, so after the launch the result
  array holds msg[e, j] = h[e, j] · n[e, 0] at every index: `Cert.Spec.scale`.
-/
import proofs.«128410_j31610959299128_2_alg».proof.Proof.Gen.KernelIdeal.Frame
import proofs.«128410_j31610959299128_2_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.ScaleValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's product at row p, column q of a block: the features' entry there times the weight of row p. -/
theorem pay_apply (x0 : Vec Ideal S6800x64 .f32) (x1 : Vec Ideal S6800x1 .f32) (p : Fin 6800) (q : Fin 64) :
    k1_pay1 x0 x1 (ix2 p q) = x0 (ix2 p q) * x1 (ix2 p 0) := by
  unfold k1_pay1
  rw [shapeCast_self, shapeCast_self, mulf_apply]
  refine congrArg (x0 (ix2 p q) * ·) ?_
  refine broadcastTo_apply x1 _ (ix2 p q) (ix2 p 0) fun a => ?_
  match a with
  | ⟨0, _⟩ => show (p : ℕ) = if (6800 : ℕ) = 1 then 0 else (p : ℕ); rw [if_neg (by decide)]
  | ⟨1, _⟩ => show (0 : ℕ) = if (1 : ℕ) = 1 then 0 else (q : ℕ); rw [if_pos rfl]

/-- The three windows' block indices at grid point t: row block t, the one column block. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What grid point t writes back is block t of `Cert.Spec.scale` of the two arrays the launch reads. -/
theorem flushed_eq (c : Dev nD) (t : Fin cfg1.N) :
    (dat1 V c).flushed 2 t = ((cfg1.win 2).blk t).view.read (Elt Ideal) (Cert.Spec.scale (V c main_v22) (V c main_v38)) := by
  show (cfg1.win 2).cut (grid1.coords t) ((dat1 V c).after 2 t) = _
  rw [after1_2]
  unfold out1_2
  rw [View.canon_unit_zero hz]
  simp only [View.ld_unit_zero (S := S6800x64) hz, View.ld_unit_zero (S := S6800x1) hz]
  obtain ⟨e00, e01, e10, e11, e20, e21⟩ := idx_facts t
  funext j
  have hj0 : (j 0).val < 6800 := (j 0).isLt
  have hj1 : (j 1).val < 64 := (j 1).isLt
  have ej : j = ix2 (n0 := 6800) (n1 := 64) (j 0) (j 1) := eq_ix2 j
  refine ((congrArg (k1_pay1 (iblk1 V c 0 t) (iblk1 V c 1 t)) ej).trans (pay_apply _ _ (j 0) (j 1))).trans ?_
  have h0 : ((cfg1.win 0).blk t).view.emb (ix2 (n0 := 6800) (n1 := 64) (j 0) (j 1)) = ((cfg1.win 2).blk t).view.emb j := by
    funext a; apply Fin.ext
    match a with
    | ⟨0, _⟩ => show win1_0.index t (0 : Fin 2) * 6800 + 1 * (j 0).val = win1_2.index t (0 : Fin 2) * 6800 + 1 * (j 0).val; omega
    | ⟨1, _⟩ => show win1_0.index t (1 : Fin 2) * 64 + 1 * (j 1).val = win1_2.index t (1 : Fin 2) * 64 + 1 * (j 1).val; omega
  have h1 : ((cfg1.win 1).blk t).view.emb (ix2 (n0 := 6800) (n1 := 1) (j 0) 0) = ix2 (n0 := 1700000) (n1 := 1) ((((cfg1.win 2).blk t).view.emb j) 0) 0 := by
    funext a; apply Fin.ext
    match a with
    | ⟨0, _⟩ => show win1_1.index t (0 : Fin 2) * 6800 + 1 * (j 0).val = win1_2.index t (0 : Fin 2) * 6800 + 1 * (j 0).val; omega
    | ⟨1, _⟩ => show win1_1.index t (1 : Fin 2) * 1 + 1 * 0 = 0; omega
  have key : ∀ (A0 : S1700000x64.Idx → EReal) (A1 : S1700000x1.Idx → EReal),
      A0 (((cfg1.win 0).blk t).view.emb (ix2 (n0 := 6800) (n1 := 64) (j 0) (j 1))) * A1 (((cfg1.win 1).blk t).view.emb (ix2 (n0 := 6800) (n1 := 1) (j 0) 0))
        = A0 (((cfg1.win 2).blk t).view.emb j) * A1 (ix2 (n0 := 1700000) (n1 := 1) ((((cfg1.win 2).blk t).view.emb j) 0) 0) := by
    intro A0 A1; rw [h0, h1]
  exact key (V c main_v22) (V c main_v38)

/-- An index of the result is in grid point t's block iff each coordinate is in the block's range on its axis. -/
theorem mem_blk (t : Fin cfg1.N) (i : S1700000x64.Idx) :
    i ∈ ((cfg1.win 2).blk t).view.set ↔ ∀ a : Fin 2, win1_2.index t a * S6800x64.size a ≤ (i a).val ∧ (i a).val < win1_2.index t a * S6800x64.size a + S6800x64.size a := by
  show i ∈ ((View.whole main_v39).slice (win1_2.rect t)).set ↔ _
  rw [View.set_slice_whole, Rect.mem_set_unit]
  exact Iff.rfl

/-- The row blocks tile the result (row r lies in block r / 6800), so after the launch the result array is
    `Cert.Spec.scale` of the two arrays the launch reads. -/
theorem final (c : Dev nD) : (dat1 V c).arrAt 2 cfg1.N = Cert.Spec.scale (V c main_v22) (V c main_v38) :=
  (dat1 V c).arrAt_eq_of_cover 2 _ (fun t _ => flushed_eq V c t) fun i => by
    have hi0 : (i 0).val < 1700000 := (i 0).isLt
    have hi1 : (i 1).val < 64 := (i 1).isLt
    have hN : cfg1.N = 250 := N_1
    obtain ⟨t, ht⟩ : ∃ t : Fin cfg1.N, t.val = (i 0).val / 6800 := ⟨⟨(i 0).val / 6800, by rw [hN]; omega⟩, rfl⟩
    obtain ⟨-, -, -, -, e20, e21⟩ := idx_facts t
    refine ⟨t, flush1_2 t, ?_⟩
    rw [mem_blk]
    intro a
    match a with
    | ⟨0, _⟩ => show win1_2.index t (0 : Fin 2) * 6800 ≤ (i 0).val ∧ (i 0).val < win1_2.index t (0 : Fin 2) * 6800 + 6800; omega
    | ⟨1, _⟩ => show win1_2.index t (1 : Fin 2) * 64 ≤ (i 1).val ∧ (i 1).val < win1_2.index t (1 : Fin 2) * 64 + 64; omega

end Cert.KernelIdeal.ScaleValue

end
-- ==== Proof.ActValue.lean ====
/-
  What the bias-clamp-log-softmax kernel leaves in its output array.

  One grid point holds a block of 5000 rows of the aggregated features and the whole bias row. With
  z[p, q] = max (x[p, q] + b[0, q]) 0 and M[p] = max_q z[p, q] (folded from −∞), the body stores
  (z[p, q] − M[p]) − log Σ_q' exp (z[p, q'] − M[p]). Row p of block t is row 5000·t + p of the array and the twenty
  blocks tile its 100000 rows, so the array ends holding the layer's output as Cert.Spec.logSoftmaxRelu states it.
-/
import proofs.«128410_j31610959299128_2_alg».proof.Proof.Gen.KernelIdeal.Frame
import proofs.«128410_j31610959299128_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.ActValue

open Cert.KernelIdeal Cert.KernelIdeal.Gen Idealize.ShloMosaic Idealize.ShloMosaic.ValueIdx Idealize.ShloMosaic.TcCoe
open Idealize.ShloMosaic.Pipeline (Dat Cfg Window)

/-! ## The body's payload at an index of the block -/

/-- The biased and clamped entry of a block: z[p, q] = max (x[p, q] + b[0, q]) 0. -/
def zb (x0 : Vec Ideal S5000x64 .f32) (x1 : Vec Ideal S1x64 .f32) (p : Fin 5000) (q : Fin 64) : EReal :=
  max (x0 (ix2 p q) + x1 (ix2 0 q)) (Ideal.ofBits .f32 0x00000000#32)

/-- A block row's maximum, folded from −∞: M[p] = max_q z[p, q]. -/
def mb (x0 : Vec Ideal S5000x64 .f32) (x1 : Vec Ideal S1x64 .f32) (p : Fin 5000) : EReal :=
  (Finset.univ : Finset (Fin 64)).fold max (Ideal.ofBits .f32 0xFF800000#32) (fun q => zb x0 x1 p q)

/-- The clamped block as the body computes it. -/
def zvec (x0 : Vec Ideal S5000x64 .f32) (x1 : Vec Ideal S1x64 .f32) : FVec Ideal S5000x64 .f32 :=
  maximumf (addf (shapeCast S5000x64 x0 shapeCasts_S5000x64_S5000x64)
      (broadcastTo S5000x64 (shapeCast S1x64 x1 shapeCasts_S1x64_S1x64) broadcasts_S1x64_S5000x64))
    (broadcast S5000x64 (Scalar.ofBits (F := Ideal) .f32 0x00000000#32))

theorem zvec_apply (x0 : Vec Ideal S5000x64 .f32) (x1 : Vec Ideal S1x64 .f32) (p : Fin 5000) (q : Fin 64) :
    zvec x0 x1 (ix2 p q) = zb x0 x1 p q := by
  unfold zvec zb
  rw [maximumf_apply, addf_apply, shapeCast_self, broadcastTo_1b_ab_apply, shapeCast_self, broadcast_apply]
  rfl

/-- A per-row vector cast to a column and broadcast back over the row, read at (p, q), is the vector at p. -/
theorem column_apply {α : Type} (v : S5000.Idx → α) (p : Fin 5000) (q : Fin 64) :
    broadcastTo S5000x64 (shapeCast S5000x1 v shapeCasts_S5000_S5000x1) broadcasts_S5000x1_S5000x64 (ix2 p q) = v (ix1 p) := by
  refine (broadcastTo_apply _ broadcasts_S5000x1_S5000x64 (ix2 p q) (ix2 p (0 : Fin 1)) (fun ax => match ax with
    | ⟨0, _⟩ => by show p.val = if (5000 : Nat) = 1 then 0 else p.val; rw [if_neg (by decide)]
    | ⟨1, _⟩ => by show 0 = if (1 : Nat) = 1 then 0 else q.val; rw [if_pos rfl])).trans ?_
  exact shapeCast_apply v shapeCasts_S5000_S5000x1 (ix2 p (0 : Fin 1)) (ix1 p) (by
    rw [Shape.rowMajor_val_two, Shape.rowMajor_val_one]; show p.val = p.val * 1 + 0; omega)

/-- The row index p with column k put back is (p, k). -/
theorem lift_row (h : S5000x64.Reduces [1] S5000) (p : Fin 5000) (k : Fin (S5000x64.size 1)) :
    h.lift (ix1 p) k = ix2 p (⟨k.val, k.isLt⟩ : Fin 64) := by
  funext c; apply Fin.ext
  match c with
  | ⟨0, _⟩ => rfl
  | ⟨1, _⟩ => rfl

/-- The lane maximum from −∞ of a block, at row p, is the fold of max over the row. -/
theorem rowMax_apply (z : FVec Ideal S5000x64 .f32) (hφ : FKind.Formats .f32)
    (hacc : (0xFF800000#32 : BitVec 32) = 0xFF800000#32) (p : Fin 5000) :
    multiReduction (F := Ideal) .maximumf [1] S5000 z 0xFF800000#32 reduces_S5000x64_S5000 hφ hacc (ix1 p)
      = (Finset.univ : Finset (Fin 64)).fold max (Ideal.ofBits .f32 0xFF800000#32) (fun q => z (ix2 p q)) := by
  refine (Ideal.multiReduction_maximumf_single z 0xFF800000#32 reduces_S5000x64_S5000 hφ hacc (ix1 p)).trans ?_
  have hf : (z ∘ reduces_S5000x64_S5000.lift (ix1 p)) = fun q : Fin 64 => z (ix2 p q) :=
    funext fun k => congrArg z (lift_row reduces_S5000x64_S5000 p k)
  exact congrArg (fun f => Finset.fold max (Ideal.ofBits .f32 0xFF800000#32) f (Finset.univ : Finset (Fin 64))) hf

/-- The lane sum of a block, at row p, is the sum over the row. -/
theorem rowSum_apply (e : FVec Ideal S5000x64 .f32) (hφ : FKind.Formats .f32)
    (hacc : (0x00000000#32 : BitVec 32) = 0x00000000#32) (p : Fin 5000) :
    multiReduction (F := Ideal) .add [1] S5000 e 0x00000000#32 reduces_S5000x64_S5000 hφ hacc (ix1 p)
      = ∑ q : Fin 64, e (ix2 p q) := by
  refine (Ideal.multiReduction_add_single e 0x00000000#32 reduces_S5000x64_S5000 hφ hacc (ix1 p)).trans ?_
  exact Finset.sum_congr rfl fun k _ => congrArg e (lift_row reduces_S5000x64_S5000 p k)

/-- The payload over the clamped block. -/
theorem pay_eq (x0 : Vec Ideal S5000x64 .f32) (x1 : Vec Ideal S1x64 .f32) :
    k2_pay1 (F := Ideal) x0 x1 =
      subf (subf (zvec x0 x1) (broadcastTo S5000x64 (shapeCast S5000x1 (multiReduction (F := Ideal) .maximumf [1] S5000 (zvec x0 x1) 0xFF800000#32 reduces_S5000x64_S5000 (.inl rfl) rfl) shapeCasts_S5000_S5000x1) broadcasts_S5000x1_S5000x64))
        (broadcastTo S5000x64 (log (shapeCast S5000x1 (multiReduction (F := Ideal) .add [1] S5000 (exp (subf (zvec x0 x1) (broadcastTo S5000x64 (shapeCast S5000x1 (multiReduction (F := Ideal) .maximumf [1] S5000 (zvec x0 x1) 0xFF800000#32 reduces_S5000x64_S5000 (.inl rfl) rfl) shapeCasts_S5000_S5000x1) broadcasts_S5000x1_S5000x64))) 0x00000000#32 reduces_S5000x64_S5000 (.inl rfl) rfl) shapeCasts_S5000_S5000x1)) broadcasts_S5000x1_S5000x64) := rfl

/-- The shifted block z − M at (p, q). -/
theorem shifted_apply (x0 : Vec Ideal S5000x64 .f32) (x1 : Vec Ideal S1x64 .f32) (p : Fin 5000) (q : Fin 64) :
    subf (zvec x0 x1) (broadcastTo S5000x64 (shapeCast S5000x1 (multiReduction (F := Ideal) .maximumf [1] S5000 (zvec x0 x1) 0xFF800000#32 reduces_S5000x64_S5000 (.inl rfl) rfl) shapeCasts_S5000_S5000x1) broadcasts_S5000x1_S5000x64) (ix2 p q)
      = zb x0 x1 p q - mb x0 x1 p := by
  rw [subf_apply, zvec_apply, column_apply, rowMax_apply]
  unfold mb
  exact congrArg (zb x0 x1 p q - ·) (congrArg (fun f => Finset.fold max (Ideal.ofBits .f32 0xFF800000#32) f (Finset.univ : Finset (Fin 64))) (funext fun k => zvec_apply x0 x1 p k))

/-- THE PAYLOAD AT (p, q): (z[p, q] − M[p]) − log Σ_q' exp (z[p, q'] − M[p]). -/
theorem pay_apply (x0 : Vec Ideal S5000x64 .f32) (x1 : Vec Ideal S1x64 .f32) (p : Fin 5000) (q : Fin 64) :
    k2_pay1 (F := Ideal) x0 x1 (ix2 p q)
      = (zb x0 x1 p q - mb x0 x1 p) - Ideal.log (∑ q' : Fin 64, Ideal.exp (zb x0 x1 p q' - mb x0 x1 p)) := by
  rw [pay_eq, subf_apply, shifted_apply]
  refine congrArg ((zb x0 x1 p q - mb x0 x1 p) - ·) ?_
  refine (broadcastTo_apply _ broadcasts_S5000x1_S5000x64 (ix2 p q) (ix2 p (0 : Fin 1)) (fun ax => match ax with
    | ⟨0, _⟩ => by show p.val = if (5000 : Nat) = 1 then 0 else p.val; rw [if_neg (by decide)]
    | ⟨1, _⟩ => by show 0 = if (1 : Nat) = 1 then 0 else q.val; rw [if_pos rfl])).trans ?_
  refine congrArg Ideal.log ?_
  refine (shapeCast_apply _ shapeCasts_S5000_S5000x1 (ix2 p (0 : Fin 1)) (ix1 p) (by
    rw [Shape.rowMajor_val_two, Shape.rowMajor_val_one]; show p.val = p.val * 1 + 0; omega)).trans ?_
  refine (rowSum_apply _ (.inl rfl) rfl p).trans ?_
  exact Finset.sum_congr rfl fun k _ => congrArg Ideal.exp (shifted_apply x0 x1 p k)

/-! ## From the blocks to the array -/

section Blocks

variable (V : (c : Dev nD) → (b : Ref sig .tc) → Buf (Elt Ideal) ((c : Thread nD τ).loc b))

theorem hz : (![0, 0] : Fin 2 → Nat) = fun _ => 0 := funext fun a => by fin_cases a <;> rfl

/-- The windows' index maps over the twenty points: the row blocks are block t, the bias block is the one block. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Row p of block t is row 5000·t + p of the array. -/
def rowOf (t : Fin cfg2.N) (p : Fin 5000) : Fin 100000 :=
  ⟨t.val * 5000 + p.val, by have h := t.isLt; have hN : cfg2.N = 20 := N_2; have := p.isLt; omega⟩

/-- The features' block at point t, at (p, k), is the array at (5000·t + p, k). -/
theorem iblk0_apply (c : Dev nD) (t : Fin cfg2.N) (p : Fin 5000) (k : Fin 64) :
    (iblk2 V c 0 t : Vec Ideal S5000x64 .f32) (ix2 p k) = (V c main_v42 : S100000x64.Idx → EReal) (ix2 (rowOf t p) k) := by
  obtain ⟨e0, e1, -, -, -, -⟩ := idx_facts t
  unfold iblk2
  rw [View.read_apply]
  show V c main_v42 _ = V c main_v42 _
  congr 1
  funext a
  apply Fin.ext
  match a with
  | ⟨0, _⟩ => show win2_0.index t (0 : Fin 2) * 5000 + 1 * p.val = t.val * 5000 + p.val; rw [e0]; omega
  | ⟨1, _⟩ => show win2_0.index t (1 : Fin 2) * 64 + 1 * k.val = k.val; rw [e1]; omega

/-- The bias block at every point is the bias row. -/
theorem iblk1_apply (c : Dev nD) (t : Fin cfg2.N) (k : Fin 64) :
    (iblk2 V c 1 t : Vec Ideal S1x64 .f32) (ix2 0 k) = (V c main_v43 : S1x64.Idx → EReal) (ix2 0 k) := by
  obtain ⟨-, -, e2, e3, -, -⟩ := idx_facts t
  unfold iblk2
  rw [View.read_apply]
  show V c main_v43 _ = V c main_v43 _
  congr 1
  funext a
  apply Fin.ext
  match a with
  | ⟨0, _⟩ => show win2_1.index t (0 : Fin 2) * 1 + 1 * 0 = 0; rw [e2]
  | ⟨1, _⟩ => show win2_1.index t (1 : Fin 2) * 64 + 1 * k.val = k.val; rw [e3]; omega

/-- The output's block at point t puts (p, q) at (5000·t + p, q). -/
theorem emb2_apply (t : Fin cfg2.N) (p : Fin 5000) (q : Fin 64) :
    ((cfg2.win 2).blk t).view.emb (ix2 p q) = ix2 (rowOf t p) q := by
  obtain ⟨-, -, -, -, e4, e5⟩ := idx_facts t
  funext a
  apply Fin.ext
  match a with
  | ⟨0, _⟩ => show win2_2.index t (0 : Fin 2) * 5000 + 1 * p.val = t.val * 5000 + p.val; rw [e4]; omega
  | ⟨1, _⟩ => show win2_2.index t (1 : Fin 2) * 64 + 1 * q.val = q.val; rw [e5]; omega

/-- The block's clamped entry is the array's. -/
theorem zb_eq (c : Dev nD) (t : Fin cfg2.N) (p : Fin 5000) (k : Fin 64) :
    zb (iblk2 V c 0 t) (iblk2 V c 1 t) p k = Cert.Spec.clamped (V c main_v42) (V c main_v43) (rowOf t p) k := by
  unfold zb Cert.Spec.clamped
  rw [iblk0_apply, iblk1_apply]

/-- The block's row maximum is the array's. -/
theorem mb_eq (c : Dev nD) (t : Fin cfg2.N) (p : Fin 5000) :
    mb (iblk2 V c 0 t) (iblk2 V c 1 t) p = Cert.Spec.rowMax (V c main_v42) (V c main_v43) (rowOf t p) := by
  unfold mb Cert.Spec.rowMax
  exact congrArg (fun f => Finset.fold max (Ideal.ofBits .f32 0xFF800000#32) f (Finset.univ : Finset (Fin 64))) (funext fun k => zb_eq V c t p k)

/-- WHAT POINT t WRITES BACK is block t of the layer's output over the arrays as the region finds them. -/
theorem flushed_eq (c : Dev nD) (t : Fin cfg2.N) :
    (dat2 (F := Ideal) V c).flushed 2 t
      = ((cfg2.win 2).blk t).view.read (Elt Ideal) (Cert.Spec.logSoftmaxRelu (V c main_v42) (V c main_v43)) := by
  show (cfg2.win 2).cut (grid2.coords t) ((dat2 (F := Ideal) V c).after 2 t) = _
  rw [after2_2]
  unfold out2_2
  rw [View.canon_unit_zero hz]
  simp only [View.ld_unit_zero (S := S5000x64) hz, View.ld_unit_zero (S := S1x64) hz]
  funext j
  obtain ⟨p, q, rfl⟩ : ∃ (p : Fin 5000) (q : Fin 64), j = ix2 p q := ⟨j 0, j 1, eq_ix2 j⟩
  rw [View.read_apply, emb2_apply]
  refine (pay_apply (iblk2 V c 0 t) (iblk2 V c 1 t) p q).trans ?_
  unfold Cert.Spec.logSoftmaxRelu
  rw [zb_eq, mb_eq]
  exact congrArg (_ - Ideal.log ·) (Finset.sum_congr rfl fun k _ => by rw [zb_eq])

/-- An index of the array is in point t's block iff each coordinate is in the block's range on its axis. -/
theorem mem_blk (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v44).slice (win2_2.rect t)).set ↔ _
  rw [View.set_slice_whole, Rect.mem_set_unit]
  exact Iff.rfl

/-- Row r of the array is in block r / 5000. -/
theorem cover (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 20 := N_2
  obtain ⟨t, ht⟩ : ∃ t : Fin cfg2.N, t.val = (i 0).val / 5000 := ⟨⟨(i 0).val / 5000, by rw [hN]; omega⟩, rfl⟩
  obtain ⟨-, -, -, -, e4, e5⟩ := idx_facts t
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; rw [e4, ht]; omega
  | ⟨1, _⟩ => show win2_2.index t (1 : Fin 2) * 64 ≤ (i 1).val ∧ (i 1).val < win2_2.index t (1 : Fin 2) * 64 + 64; rw [e5]; omega

/-- The region's three arrays: the aggregated features, the bias row, the output. -/
theorem arrRef_0 : Pipeline.arrRef spec2 0 = main_v42 := rfl
theorem arrRef_1 : Pipeline.arrRef spec2 1 = main_v43 := rfl
theorem arrRef_2 : Pipeline.arrRef spec2 2 = main_v44 := rfl

/-- THE ARRAY after the region: the layer's output of the features and the bias as the region finds them. -/
theorem final (c : Dev nD) :
    (dat2 (F := Ideal) V c).arrAt 2 cfg2.N = Cert.Spec.logSoftmaxRelu (V c main_v42) (V c main_v43) :=
  (dat2 (F := Ideal) V c).arrAt_eq_of_cover 2 _ (fun t _ => flushed_eq V c t) cover

end Blocks

end Cert.KernelIdeal.ActValue

end
-- ==== Proof.Boundaries.lean ====
/-
  What the buffers hold at each boundary of the idealized kernel's run, as functions of the four argument arrays.

  Write x, e, w, b for the argument arrays (features, edge list, weights, bias). First every stretch of host operations is read
  for an arbitrary valuation Y of the buffers it starts from: which function of Y each buffer it writes then holds, and that a
  buffer it does not write keeps Y's contents. Then the run is followed boundary by boundary: before the first launch the host
  operations have formed every edge's source and target node from e; the first launch leaves the feature transform x·w; the
  host operations before the second launch form the degrees, the edge weights as a column, and gather the rows of x·w by source
  node; the second launch leaves the gathered rows times their weights; the host operations before the third launch add these
  up by target node and reshape the bias to a row; the third launch leaves the row-wise log-softmax of the clamped sums.
  The shared host stages are named as in `Cert.ReferenceIdeal.Ops`: both programs apply the same operations there.
-/
import proofs.«128410_j31610959299128_2_alg».proof.Proof.Gen.KernelIdeal.Frame
import proofs.«128410_j31610959299128_2_alg».proof.Proof.RefOps
import proofs.«128410_j31610959299128_2_alg».proof.Proof.Spec
import proofs.«128410_j31610959299128_2_alg».proof.Proof.ProjectValue
import proofs.«128410_j31610959299128_2_alg».proof.Proof.ScaleValue
import proofs.«128410_j31610959299128_2_alg».proof.Proof.ActValue
import Idealize.ShloMosaic.Lib.StableHlo.Run

set_option maxRecDepth 16384

noncomputable section

namespace Cert.KernelIdeal.Boundaries

open Idealize.ShloMosaic Idealize.ShloMosaic.TcCoe Idealize.ShloMosaic.StableHlo
open Idealize.SL Idealize.SL.Sem
open Cert.KernelIdeal Cert.KernelIdeal.Gen

local notation "Ref.rowIdx" => Cert.ReferenceIdeal.Ops.rowIdx (F := Ideal)
local notation "Ref.colIdx" => Cert.ReferenceIdeal.Ops.colIdx (F := Ideal)
local notation "Ref.degreeOf" => Cert.ReferenceIdeal.Ops.degreeOf (F := Ideal)
local notation "Ref.positiveOf" => Cert.ReferenceIdeal.Ops.positiveOf (F := Ideal)
local notation "Ref.disOf" => Cert.ReferenceIdeal.Ops.disOf (F := Ideal)
local notation "Ref.weightOf" => Cert.ReferenceIdeal.Ops.weightOf (F := Ideal)
local notation "Ref.gatherRowsOf" => Cert.ReferenceIdeal.Ops.gatherRowsOf (F := Ideal)
local notation "Ref.aggregateOf" => Cert.ReferenceIdeal.Ops.aggregateOf (F := Ideal)

/-! ## The stretches of host operations, each from an arbitrary valuation -/

/-- The first stretch forms the source node of every edge from the edge list … -/
theorem ops0_row (Y : Valuation τ sig (Elt Ideal)) : after hostOps0 Y (Proc.devRef .tc main_v5) = Ref.rowIdx (Y (Proc.devRef .tc main_arg1)) := by
  after_results
  rfl
/-- … and the target node of every edge, and writes no argument. -/
theorem ops0_col (Y : Valuation τ sig (Elt Ideal)) : after hostOps0 Y (Proc.devRef .tc main_v6) = Ref.colIdx (Y (Proc.devRef .tc main_arg1)) := by
  after_results
  rfl
theorem ops0_main_arg0 (Y : Valuation τ sig (Elt Ideal)) : after hostOps0 Y (Proc.devRef .tc main_arg0) = Y (Proc.devRef .tc main_arg0) := by
  after_results
theorem ops0_main_arg2 (Y : Valuation τ sig (Elt Ideal)) : after hostOps0 Y (Proc.devRef .tc main_arg2) = Y (Proc.devRef .tc main_arg2) := by
  after_results
theorem ops0_main_arg3 (Y : Valuation τ sig (Elt Ideal)) : after hostOps0 Y (Proc.devRef .tc main_arg3) = Y (Proc.devRef .tc main_arg3) := by
  after_results

/-- The second stretch forms the in-degrees from the target nodes: "the degree is positive", … -/
theorem ops1_pos (Y : Valuation τ sig (Elt Ideal)) : after hostOps1 Y (Proc.devRef .tc main_v13) = Ref.positiveOf (Y (Proc.devRef .tc main_v6)) := by
  after_results
  rfl
/-- … the degree's inverse square root, … -/
theorem ops1_rsqrt (Y : Valuation τ sig (Elt Ideal)) : after hostOps1 Y (Proc.devRef .tc main_v14) = Host.rsqrt (F := Ideal) (φ := .f32) (Ref.degreeOf (Y (Proc.devRef .tc main_v6))) := by
  after_results
  rfl
/-- … and a zero. -/
theorem ops1_zero (Y : Valuation τ sig (Elt Ideal)) : after hostOps1 Y (Proc.devRef .tc main_cst_2) = constant (F := Ideal) S_ .f32 0x00000000#32 := by
  after_results
theorem ops1_main_v5 (Y : Valuation τ sig (Elt Ideal)) : after hostOps1 Y (Proc.devRef .tc main_v5) = Y (Proc.devRef .tc main_v5) := by
  after_results
theorem ops1_main_v6 (Y : Valuation τ sig (Elt Ideal)) : after hostOps1 Y (Proc.devRef .tc main_v6) = Y (Proc.devRef .tc main_v6) := by
  after_results
theorem ops1_main_v7 (Y : Valuation τ sig (Elt Ideal)) : after hostOps1 Y (Proc.devRef .tc main_v7) = Y (Proc.devRef .tc main_v7) := by
  after_results
theorem ops1_main_arg3 (Y : Valuation τ sig (Elt Ideal)) : after hostOps1 Y (Proc.devRef .tc main_arg3) = Y (Proc.devRef .tc main_arg3) := by
  after_results

/-- The third stretch (the selection) keeps the inverse square root where the degree is positive and puts zero elsewhere. -/
theorem ops11_dis (Y : Valuation τ sig (Elt Ideal)) :
    after hostOps1_1 Y (Proc.devRef .tc main_v15)
      = select (Y (Proc.devRef .tc main_v13)) (Y (Proc.devRef .tc main_v14)) (broadcastInDim S100000 ![] Cert.KernelIdeal.Gen.bcast_S_S100000 (id (Y (Proc.devRef .tc main_cst_2)))) := by
  after_results
  rfl
theorem ops11_main_v5 (Y : Valuation τ sig (Elt Ideal)) : after hostOps1_1 Y (Proc.devRef .tc main_v5) = Y (Proc.devRef .tc main_v5) := by
  after_results
theorem ops11_main_v6 (Y : Valuation τ sig (Elt Ideal)) : after hostOps1_1 Y (Proc.devRef .tc main_v6) = Y (Proc.devRef .tc main_v6) := by
  after_results
theorem ops11_main_v7 (Y : Valuation τ sig (Elt Ideal)) : after hostOps1_1 Y (Proc.devRef .tc main_v7) = Y (Proc.devRef .tc main_v7) := by
  after_results
theorem ops11_main_arg3 (Y : Valuation τ sig (Elt Ideal)) : after hostOps1_1 Y (Proc.devRef .tc main_arg3) = Y (Proc.devRef .tc main_arg3) := by
  after_results

set_option maxHeartbeats 4000000 in
/-- The fourth stretch gathers the rows of the transformed features by every edge's source node … -/
theorem ops12_gathered (Y : Valuation τ sig (Elt Ideal)) :
    after hostOps1_2 Y (Proc.devRef .tc main_v22) = Ref.gatherRowsOf (Y (Proc.devRef .tc main_v7)) (Y (Proc.devRef .tc main_v5)) := by
  after_results_simp
  rfl
set_option maxHeartbeats 4000000 in
/-- … and forms every edge's weight from the node values at its two ends, as an [L, 1] column. -/
theorem ops12_weight (Y : Valuation τ sig (Elt Ideal)) :
    after hostOps1_2 Y (Proc.devRef .tc main_v38)
      = shapeCast S1700000x1 (Ref.weightOf (Y (Proc.devRef .tc main_v15)) (Y (Proc.devRef .tc main_v5)) (Y (Proc.devRef .tc main_v6))) Cert.KernelIdeal.Gen.shapeCasts_S1700000_S1700000x1 := by
  after_results_simp
  rfl
set_option maxHeartbeats 4000000 in
theorem ops12_main_v6 (Y : Valuation τ sig (Elt Ideal)) : after hostOps1_2 Y (Proc.devRef .tc main_v6) = Y (Proc.devRef .tc main_v6) := by
  after_results_simp
set_option maxHeartbeats 4000000 in
theorem ops12_main_arg3 (Y : Valuation τ sig (Elt Ideal)) : after hostOps1_2 Y (Proc.devRef .tc main_arg3) = Y (Proc.devRef .tc main_arg3) := by
  after_results_simp

/-- The last stretch adds the scaled rows up by target node … -/
theorem ops2_agg (Y : Valuation τ sig (Elt Ideal)) :
    after hostOps2 Y (Proc.devRef .tc main_v42) = Ref.aggregateOf (Y (Proc.devRef .tc main_v39)) (Y (Proc.devRef .tc main_v6)) := by
  after_results
  rfl
/-- … and reshapes the bias to a [1, 64] row. -/
theorem ops2_bias (Y : Valuation τ sig (Elt Ideal)) :
    after hostOps2 Y (Proc.devRef .tc main_v43) = shapeCast S1x64 (Y (Proc.devRef .tc main_arg3)) Cert.KernelIdeal.Gen.shapeCasts_S64_S1x64 := by
  after_results
  rfl

/-! ## The run, boundary by boundary -/

variable (m : (ℓ : Loc nD τ sig) → Buf (Elt Ideal) ℓ) (ρ : Dev nD → PrngReg)

/-! ### Before the first launch: the edges' nodes; the arguments untouched -/

theorem W1_row (c : Dev nD) : W1 m ρ c (Proc.devRef .tc main_v5) = Ref.rowIdx (m ((c.tc : Thread nD τ).loc main_arg1)) := ops0_row (W0 m ρ c)
theorem W1_col (c : Dev nD) : W1 m ρ c (Proc.devRef .tc main_v6) = Ref.colIdx (m ((c.tc : Thread nD τ).loc main_arg1)) := ops0_col (W0 m ρ c)
theorem W1_arg0 (c : Dev nD) : W1 m ρ c (Proc.devRef .tc main_arg0) = (m ((c.tc : Thread nD τ).loc main_arg0)) := ops0_main_arg0 (W0 m ρ c)
theorem W1_arg2 (c : Dev nD) : W1 m ρ c (Proc.devRef .tc main_arg2) = (m ((c.tc : Thread nD τ).loc main_arg2)) := ops0_main_arg2 (W0 m ρ c)
theorem W1_arg3 (c : Dev nD) : W1 m ρ c (Proc.devRef .tc main_arg3) = (m ((c.tc : Thread nD τ).loc main_arg3)) := ops0_main_arg3 (W0 m ρ c)

/-! ### After the first launch: the feature transform x·w -/

theorem W2_h (c : Dev nD) : W2 m ρ c (Proc.devRef .tc main_v7) = Cert.Spec.project (m ((c.tc : Thread nD τ).loc main_arg0)) (m ((c.tc : Thread nD τ).loc main_arg2)) := by
  refine (W2_arr m ρ c 2).trans ((Cert.KernelIdeal.ProjectValue.final (V1 m ρ) c).trans ?_)
  show Cert.Spec.project (W1 m ρ c (Proc.devRef .tc main_arg0)) (W1 m ρ c (Proc.devRef .tc main_arg2)) = _
  rw [W1_arg0, W1_arg2]
theorem W2_row (c : Dev nD) : W2 m ρ c (Proc.devRef .tc main_v5) = Ref.rowIdx (m ((c.tc : Thread nD τ).loc main_arg1)) :=
  (W2_of_ne m ρ c main_v5 (by decide)).trans (W1_row m ρ c)
theorem W2_col (c : Dev nD) : W2 m ρ c (Proc.devRef .tc main_v6) = Ref.colIdx (m ((c.tc : Thread nD τ).loc main_arg1)) :=
  (W2_of_ne m ρ c main_v6 (by decide)).trans (W1_col m ρ c)
theorem W2_arg3 (c : Dev nD) : W2 m ρ c (Proc.devRef .tc main_arg3) = (m ((c.tc : Thread nD τ).loc main_arg3)) :=
  (W2_of_ne m ρ c main_arg3 (by decide)).trans (W1_arg3 m ρ c)

/-! ### Through the host operations before the second launch: degrees, weights, gathered rows -/

theorem W3_pos (c : Dev nD) : W3 m ρ c (Proc.devRef .tc main_v13) = Ref.positiveOf (Ref.colIdx (m ((c.tc : Thread nD τ).loc main_arg1))) :=
  (ops1_pos (W2 m ρ c)).trans (congrArg (fun v => Ref.positiveOf v) (W2_col m ρ c))
theorem W3_rsqrt (c : Dev nD) : W3 m ρ c (Proc.devRef .tc main_v14) = Host.rsqrt (F := Ideal) (φ := .f32) (Ref.degreeOf (Ref.colIdx (m ((c.tc : Thread nD τ).loc main_arg1)))) :=
  (ops1_rsqrt (W2 m ρ c)).trans (congrArg (fun v => Host.rsqrt (F := Ideal) (φ := .f32) (Ref.degreeOf v)) (W2_col m ρ c))
theorem W3_zero (c : Dev nD) : W3 m ρ c (Proc.devRef .tc main_cst_2) = constant (F := Ideal) S_ .f32 0x00000000#32 := ops1_zero (W2 m ρ c)
theorem W3_row (c : Dev nD) : W3 m ρ c (Proc.devRef .tc main_v5) = Ref.rowIdx (m ((c.tc : Thread nD τ).loc main_arg1)) := (ops1_main_v5 (W2 m ρ c)).trans (W2_row m ρ c)
theorem W3_col (c : Dev nD) : W3 m ρ c (Proc.devRef .tc main_v6) = Ref.colIdx (m ((c.tc : Thread nD τ).loc main_arg1)) := (ops1_main_v6 (W2 m ρ c)).trans (W2_col m ρ c)
theorem W3_h (c : Dev nD) : W3 m ρ c (Proc.devRef .tc main_v7) = Cert.Spec.project (m ((c.tc : Thread nD τ).loc main_arg0)) (m ((c.tc : Thread nD τ).loc main_arg2)) := (ops1_main_v7 (W2 m ρ c)).trans (W2_h m ρ c)
theorem W3_arg3 (c : Dev nD) : W3 m ρ c (Proc.devRef .tc main_arg3) = (m ((c.tc : Thread nD τ).loc main_arg3)) := (ops1_main_arg3 (W2 m ρ c)).trans (W2_arg3 m ρ c)

theorem W4_dis (c : Dev nD) : W4 m ρ c (Proc.devRef .tc main_v15) = Ref.disOf (Ref.colIdx (m ((c.tc : Thread nD τ).loc main_arg1))) := by
  refine (ops11_dis (W3 m ρ c)).trans ?_
  rw [W3_pos, W3_rsqrt, W3_zero]
  rfl
theorem W4_row (c : Dev nD) : W4 m ρ c (Proc.devRef .tc main_v5) = Ref.rowIdx (m ((c.tc : Thread nD τ).loc main_arg1)) := (ops11_main_v5 (W3 m ρ c)).trans (W3_row m ρ c)
theorem W4_col (c : Dev nD) : W4 m ρ c (Proc.devRef .tc main_v6) = Ref.colIdx (m ((c.tc : Thread nD τ).loc main_arg1)) := (ops11_main_v6 (W3 m ρ c)).trans (W3_col m ρ c)
theorem W4_h (c : Dev nD) : W4 m ρ c (Proc.devRef .tc main_v7) = Cert.Spec.project (m ((c.tc : Thread nD τ).loc main_arg0)) (m ((c.tc : Thread nD τ).loc main_arg2)) := (ops11_main_v7 (W3 m ρ c)).trans (W3_h m ρ c)
theorem W4_arg3 (c : Dev nD) : W4 m ρ c (Proc.devRef .tc main_arg3) = (m ((c.tc : Thread nD τ).loc main_arg3)) := (ops11_main_arg3 (W3 m ρ c)).trans (W3_arg3 m ρ c)

theorem W5_gathered (c : Dev nD) : W5 m ρ c (Proc.devRef .tc main_v22) = Ref.gatherRowsOf (Cert.Spec.project (m ((c.tc : Thread nD τ).loc main_arg0)) (m ((c.tc : Thread nD τ).loc main_arg2))) (Ref.rowIdx (m ((c.tc : Thread nD τ).loc main_arg1))) := by
  refine (ops12_gathered (W4 m ρ c)).trans ?_
  rw [W4_h, W4_row]
theorem W5_weight (c : Dev nD) : W5 m ρ c (Proc.devRef .tc main_v38) = shapeCast S1700000x1 (Ref.weightOf (Ref.disOf (Ref.colIdx (m ((c.tc : Thread nD τ).loc main_arg1)))) (Ref.rowIdx (m ((c.tc : Thread nD τ).loc main_arg1))) (Ref.colIdx (m ((c.tc : Thread nD τ).loc main_arg1)))) Cert.KernelIdeal.Gen.shapeCasts_S1700000_S1700000x1 := by
  refine (ops12_weight (W4 m ρ c)).trans ?_
  rw [W4_dis, W4_row, W4_col]
theorem W5_col (c : Dev nD) : W5 m ρ c (Proc.devRef .tc main_v6) = Ref.colIdx (m ((c.tc : Thread nD τ).loc main_arg1)) := (ops12_main_v6 (W4 m ρ c)).trans (W4_col m ρ c)
theorem W5_arg3 (c : Dev nD) : W5 m ρ c (Proc.devRef .tc main_arg3) = (m ((c.tc : Thread nD τ).loc main_arg3)) := (ops12_main_arg3 (W4 m ρ c)).trans (W4_arg3 m ρ c)

/-! ### After the second launch: the gathered rows times their weights -/

theorem W6_msg (c : Dev nD) : W6 m ρ c (Proc.devRef .tc main_v39) = Cert.Spec.scale (Ref.gatherRowsOf (Cert.Spec.project (m ((c.tc : Thread nD τ).loc main_arg0)) (m ((c.tc : Thread nD τ).loc main_arg2))) (Ref.rowIdx (m ((c.tc : Thread nD τ).loc main_arg1)))) (shapeCast S1700000x1 (Ref.weightOf (Ref.disOf (Ref.colIdx (m ((c.tc : Thread nD τ).loc main_arg1)))) (Ref.rowIdx (m ((c.tc : Thread nD τ).loc main_arg1))) (Ref.colIdx (m ((c.tc : Thread nD τ).loc main_arg1)))) Cert.KernelIdeal.Gen.shapeCasts_S1700000_S1700000x1) := by
  refine (W6_arr m ρ c 2).trans ((Cert.KernelIdeal.ScaleValue.final (V5 m ρ) c).trans ?_)
  show Cert.Spec.scale (W5 m ρ c (Proc.devRef .tc main_v22)) (W5 m ρ c (Proc.devRef .tc main_v38)) = _
  rw [W5_gathered, W5_weight]
theorem W6_col (c : Dev nD) : W6 m ρ c (Proc.devRef .tc main_v6) = Ref.colIdx (m ((c.tc : Thread nD τ).loc main_arg1)) :=
  (W6_of_ne m ρ c main_v6 (by decide)).trans (W5_col m ρ c)
theorem W6_arg3 (c : Dev nD) : W6 m ρ c (Proc.devRef .tc main_arg3) = (m ((c.tc : Thread nD τ).loc main_arg3)) :=
  (W6_of_ne m ρ c main_arg3 (by decide)).trans (W5_arg3 m ρ c)

/-! ### Before the third launch: the sums by target node, and the bias as a row -/

theorem W7_agg (c : Dev nD) : W7 m ρ c (Proc.devRef .tc main_v42) = Ref.aggregateOf (Cert.Spec.scale (Ref.gatherRowsOf (Cert.Spec.project (m ((c.tc : Thread nD τ).loc main_arg0)) (m ((c.tc : Thread nD τ).loc main_arg2))) (Ref.rowIdx (m ((c.tc : Thread nD τ).loc main_arg1)))) (shapeCast S1700000x1 (Ref.weightOf (Ref.disOf (Ref.colIdx (m ((c.tc : Thread nD τ).loc main_arg1)))) (Ref.rowIdx (m ((c.tc : Thread nD τ).loc main_arg1))) (Ref.colIdx (m ((c.tc : Thread nD τ).loc main_arg1)))) Cert.KernelIdeal.Gen.shapeCasts_S1700000_S1700000x1)) (Ref.colIdx (m ((c.tc : Thread nD τ).loc main_arg1))) := by
  refine (ops2_agg (W6 m ρ c)).trans ?_
  rw [W6_msg, W6_col]
theorem W7_bias (c : Dev nD) : W7 m ρ c (Proc.devRef .tc main_v43) = shapeCast S1x64 (m ((c.tc : Thread nD τ).loc main_arg3)) Cert.KernelIdeal.Gen.shapeCasts_S64_S1x64 := by
  refine (ops2_bias (W6 m ρ c)).trans ?_
  rw [W6_arg3]

/-! ### After the third launch: the result -/

/-- The result buffer at the last boundary: the row-wise log-softmax of the clamped, biased sums over every node's incoming
    edges of the weighted, gathered rows of x·w. -/
theorem W8_out (c : Dev nD) : W8 m ρ c (Proc.devRef .tc main_v44) = Cert.Spec.logSoftmaxRelu (Ref.aggregateOf (Cert.Spec.scale (Ref.gatherRowsOf (Cert.Spec.project (m ((c.tc : Thread nD τ).loc main_arg0)) (m ((c.tc : Thread nD τ).loc main_arg2))) (Ref.rowIdx (m ((c.tc : Thread nD τ).loc main_arg1)))) (shapeCast S1700000x1 (Ref.weightOf (Ref.disOf (Ref.colIdx (m ((c.tc : Thread nD τ).loc main_arg1)))) (Ref.rowIdx (m ((c.tc : Thread nD τ).loc main_arg1))) (Ref.colIdx (m ((c.tc : Thread nD τ).loc main_arg1)))) Cert.KernelIdeal.Gen.shapeCasts_S1700000_S1700000x1)) (Ref.colIdx (m ((c.tc : Thread nD τ).loc main_arg1)))) (shapeCast S1x64 (m ((c.tc : Thread nD τ).loc main_arg3)) Cert.KernelIdeal.Gen.shapeCasts_S64_S1x64) := by
  refine (W8_arr m ρ c 2).trans ((Cert.KernelIdeal.ActValue.final (V7 m ρ) c).trans ?_)
  show Cert.Spec.logSoftmaxRelu (W7 m ρ c (Proc.devRef .tc main_v42)) (W7 m ρ c (Proc.devRef .tc main_v43)) = _
  rw [W7_agg, W7_bias]

end Cert.KernelIdeal.Boundaries

end
-- ==== Proof.LibKeepdimsColumn.lean ====
/-
  A vector of extent `a` seen as a column `[a, 1]`: what `keepdims=True` leaves of a sum over the last axis, and what a
  reshape of a flat array to a column is. Row-major, the element at `(i, u)` of the column is the element at `i` of the
  vector, since `i · 1 + u = i` for the one value `u = 0`. And the sums over the index sets of a flat array and of a
  column, each as the sum over the one coordinate that varies.
-/
import Idealize.ShloMosaic.Lib.ValueLayout

noncomputable section

open scoped BigOperators

namespace Cert.LibKeepdims

open Idealize.ShloMosaic Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A sum over the indices of a column `[n, 1]` is the sum over its rows, each read at the one column `0`. -/
theorem sum_idx_column {M : Type*} [AddCommMonoid M] {n : Nat} (f : (⟨2, ![n, 1]⟩ : Shape).Idx → M) :
    ∑ i, f i = ∑ a : Fin n, f (ix2 a (0 : Fin 1)) := by
  rw [sum_idx2]
  exact Finset.sum_congr rfl fun a _ => Fin.sum_univ_one _

end Cert.LibKeepdims

end
-- ==== Proof.Bridge.lean ====
/-
  Where the reference spells a stage differently from the launches, the two spellings are one function.

  * The reference multiplies the gathered rows by the edge weights broadcast first to a column and then along the 64 features; that
    product is `Cert.Spec.scale` of the gathered rows and the weights reshaped to a column: both read the weight of row e.
  * The bias as a [1, 64] row is the same array whether the [64] vector is broadcast into it or reshaped to it.
-/
import proofs.«128410_j31610959299128_2_alg».proof.Proof.Gen.ReferenceIdeal
import proofs.«128410_j31610959299128_2_alg».proof.Proof.Spec
import proofs.«128410_j31610959299128_2_alg».proof.Proof.LibKeepdimsColumn
import Idealize.ShloMosaic.Lib.Pipeline.Value
import Idealize.ShloMosaic.Lib.ValueIdx
import Idealize.ShloMosaic.Lib.ValueLayout

noncomputable section

namespace Cert.Bridge

open Idealize.ShloMosaic Idealize.ShloMosaic.ValueIdx
open Cert.ReferenceIdeal Cert.ReferenceIdeal.Gen

/-- Rows times the weights broadcast to a column and then along the features: row e, feature j is h[e, j] · n[e]. -/
theorem scale_eq (hg : FVec Ideal S1700000x64 .f32) (n : FVec Ideal S1700000 .f32) (h3 : S1700000.ShapeCasts S1700000x1) :
    mulf hg (broadcastInDim S1700000x64 ![0, 1] bcast_S1700000x1_S1700000x64_0_1 (broadcastInDim S1700000x1 ![0] bcast_S1700000_S1700000x1_0 n))
      = Cert.Spec.scale hg (shapeCast S1700000x1 n h3) := by
  funext i
  obtain ⟨p, q, rfl⟩ : ∃ (p : Fin 1700000) (q : Fin 64), i = ix2 p q := ⟨i 0, i 1, eq_ix2 i⟩
  unfold Cert.Spec.scale
  rw [mulf_apply]
  refine congrArg (hg (ix2 p q) * ·) ?_
  rw [broadcastInDim_apply _ bcast_S1700000x1_S1700000x64_0_1 _ (ix2 p q) (ix2 p 0) (fun a => match a with
      | ⟨0, _⟩ => by show (p : ℕ) = if (1700000 : ℕ) = 1 then 0 else (p : ℕ); rw [if_neg (by decide)]
      | ⟨1, _⟩ => by show (0 : ℕ) = if (1 : ℕ) = 1 then 0 else (q : ℕ); rw [if_pos rfl]),
    broadcastInDim_apply _ bcast_S1700000_S1700000x1_0 n (ix2 p 0) (ix1 p) (fun a => match a with
      | ⟨0, _⟩ => by show (p : ℕ) = if (1700000 : ℕ) = 1 then 0 else (p : ℕ); rw [if_neg (by decide)])]
  exact (Cert.LibKeepdims.shapeCast_a_a1_apply n h3 p 0).symm

/-- The bias vector broadcast into a [1, 64] row is the vector reshaped to that row: entry (0, j) is b[j]. -/
theorem bias_eq (b : FVec Ideal S64 .f32) (h : S64.ShapeCasts S1x64) :
    broadcastInDim S1x64 ![1] bcast_S64_S1x64_1 b = shapeCast S1x64 b h := by
  funext i
  obtain ⟨u, j, rfl⟩ : ∃ (u : Fin 1) (j : Fin 64), i = ix2 u j := ⟨i 0, i 1, eq_ix2 i⟩
  have hu : u = 0 := Fin.ext (by omega)
  subst hu
  rw [broadcastInDim_apply _ bcast_S64_S1x64_1 b (ix2 0 j) (ix1 j) (fun a => match a with
      | ⟨0, _⟩ => by show (j : ℕ) = if (64 : ℕ) = 1 then 0 else (j : ℕ); rw [if_neg (by decide)])]
  exact (shapeCast_a_1a_apply b h 0 j).symm

end Cert.Bridge

end
-- ==== Proof.Equal.lean ====
/-
  The reference's result, as a function of its four arguments, is the function the kernel's run ends at.

  Stage by stage: the reference's matrix product is the feature transform `Cert.Spec.project`; its product of the gathered rows by
  the weights broadcast along the features is `Cert.Spec.scale` of the rows and the weights as a column; its bias row is the
  reshaped bias vector; and its last stage (add the bias, clamp at zero, row-wise log-softmax) is `Cert.Spec.logSoftmaxRelu`.
  The gathers and the scatter-adds between those stages are the same host operations on both sides.
-/
import proofs.«128410_j31610959299128_2_alg».proof.Proof.RefOps
import proofs.«128410_j31610959299128_2_alg».proof.Proof.Spec
import proofs.«128410_j31610959299128_2_alg».proof.Proof.Bridge
import proofs.«128410_j31610959299128_2_alg».proof.Proof.ActRef
import proofs.«128410_j31610959299128_2_alg».proof.Proof.ProjectValue

noncomputable section

namespace Cert.Bridge

open Idealize.ShloMosaic
open Cert.ReferenceIdeal Cert.ReferenceIdeal.Gen Cert.ReferenceIdeal.Ops

/-- The reference's last three stages, as its result term spells them, are the stage read in `Cert.ReferenceIdeal.ActRef`:
    the same operations in the same order. -/
theorem tail_eq (a : FVec Ideal S100000x64 .f32) (b : FVec Ideal S64 .f32) :
    refLogSoftmax (F := Ideal) (refRelu (F := Ideal) (refBias (F := Ideal) a b))
      = Cert.ReferenceIdeal.ActRef.act (F := Ideal) a (broadcastInDim S1x64 ![1] bcast_S64_S1x64_1 b) := rfl

/-- The reference's result is the log-softmax of the clamped, biased sums over every node's incoming edges of the weighted,
    gathered rows of x·w. -/
theorem refOut_eq (x : FVec Ideal S100000x128 .f32) (e : (⟨S2x1600000, .i32⟩ : BufTy).Contents (Elt Ideal))
    (w : FVec Ideal S128x64 .f32) (b : FVec Ideal S64 .f32)
    (h1 : S1700000.ShapeCasts S1700000x1) (h2 : S64.ShapeCasts S1x64) :
    refOut (F := Ideal) x e w b
      = Cert.Spec.logSoftmaxRelu
          (aggregateOf (F := Ideal)
            (Cert.Spec.scale (gatherRowsOf (F := Ideal) (Cert.Spec.project x w) (rowIdx (F := Ideal) e))
              (shapeCast S1700000x1 (weightOf (F := Ideal) (disOf (F := Ideal) (colIdx (F := Ideal) e)) (rowIdx (F := Ideal) e) (colIdx (F := Ideal) e)) h1))
            (colIdx (F := Ideal) e))
          (shapeCast S1x64 b h2) := by
  unfold refOut
  rw [tail_eq, Cert.ReferenceIdeal.ActRef.act_eq, bias_eq b h2]
  unfold refScale
  rw [scale_eq _ _ h1, Cert.KernelIdeal.ProjectValue.dot_eq]

end Cert.Bridge

end
-- ==== Proof.lean ====
/-
  A graph-convolution layer with self-loops and symmetric normalisation, followed by a clamp at zero and a row-wise log-softmax:
  the kernel (three grid launches among host gathers and scatter-adds) against its plain reference, as extended reals.

  With x the node features, e the edge list, w the weights and b the bias, both programs compute
      out = logSoftmax (max (A · (x·w) + b, 0)),
  where A sums, over every edge (the given ones and one self-loop per node), the source node's row weighted by the inverse
  square roots of the in-degrees of the edge's two ends. The kernel computes x·w in row blocks with the operands rounded to
  a shorter float format first (the identity on extended reals), multiplies the gathered rows by the edge weights in row
  blocks, and takes the bias, the clamp and the max-shifted log-softmax in row blocks; the reference does the same three steps
  with whole-array host operations, and the gathers and scatter-adds between them are the same operations in both programs.
  So the two results are one function of the four arguments: `Cert.KernelIdeal.Boundaries.W8_out` reads the kernel's run
  boundary by boundary, `Cert.ReferenceIdeal.RefValue.res_eq` reads the reference's operations, and `Cert.Bridge.refOut_eq`
  joins them stage by stage. No law of arithmetic beyond reading both sides index by index is used, so the precondition is
  never opened. The ideal pass rewrote nothing, so `preserves` is trivial; the kernels' frames are the generated ones and the
  reference's frame is its run with the result dropped.
-/
import proofs.«128410_j31610959299128_2_alg».proof.Defs
import proofs.«128410_j31610959299128_2_alg».proof.Proof.Gen.Kernel
import proofs.«128410_j31610959299128_2_alg».proof.Proof.Gen.Kernel.Skeleton
import proofs.«128410_j31610959299128_2_alg».proof.Proof.Gen.Kernel.Launch
import proofs.«128410_j31610959299128_2_alg».proof.Proof.Gen.Kernel.Points
import proofs.«128410_j31610959299128_2_alg».proof.Proof.Gen.Kernel.Frame
import proofs.«128410_j31610959299128_2_alg».proof.Proof.Gen.KernelIdeal
import proofs.«128410_j31610959299128_2_alg».proof.Proof.Gen.KernelIdeal.Skeleton
import proofs.«128410_j31610959299128_2_alg».proof.Proof.Gen.KernelIdeal.Launch
import proofs.«128410_j31610959299128_2_alg».proof.Proof.Gen.KernelIdeal.Points
import proofs.«128410_j31610959299128_2_alg».proof.Proof.Gen.KernelIdeal.Frame
import proofs.«128410_j31610959299128_2_alg».proof.Proof.Gen.ReferenceIdeal
import proofs.«128410_j31610959299128_2_alg».proof.Proof.Gen.Pre_finite_inputs
import proofs.«128410_j31610959299128_2_alg».proof.Proof.RefRun
import proofs.«128410_j31610959299128_2_alg».proof.Proof.RefValue
import proofs.«128410_j31610959299128_2_alg».proof.Proof.KernelRun
import proofs.«128410_j31610959299128_2_alg».proof.Proof.Boundaries
import proofs.«128410_j31610959299128_2_alg».proof.Proof.Equal
import Idealize.ShloMosaic.Adequacy
import Idealize.ShloMosaic.Init

noncomputable section

namespace Cert.Proof

open Idealize.ShloMosaic Idealize.SL.Sem

/-- The kernel as printed runs, faults nowhere and leaves its arguments as launched: the generated frame. -/
theorem frame_k : Cert.frame_Kernel := fun m ρ _ => Cert.Kernel.Gen.frame m ρ

/-- The same of the idealized kernel. -/
theorem frame_ki : Cert.frame_KernelIdeal := fun m ρ _ => Cert.KernelIdeal.Gen.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.RunP.run (F := Ideal) m ρ)

/-- The ideal pass rewrote no operation. -/
theorem preserves : Cert.preserves_Kernel_KernelIdeal := trivial

/-- From memories agreeing on the four arguments both idealized programs run, and both result buffers end at one function of
    the arguments: the kernel's at the last boundary's contents (`W8_out`), the reference's at its operations' composition
    (`res_eq`), which is that function (`refOut_eq`). -/
theorem algebraic : Cert.algebraic_KernelIdeal_ReferenceIdeal := by
  intro m ρ m' ρ' _ hagree
  refine ⟨fun c => Cert.KernelIdeal.Gen.W8 m ρ c (Proc.devRef .tc Cert.KernelIdeal.main_v44),
    Cert.KernelIdeal.RunValue.run m ρ, ?_⟩
  refine (θ_run Cert.ReferenceIdeal.defs _ _).mono (fun _ h c => ⟨(h c).1.trans ?_, (h c).2⟩)
    (Cert.ReferenceIdeal.RunP.run (F := Ideal) m' ρ')
  rw [Cert.ReferenceIdeal.RefValue.res_eq, (hagree c).1, (hagree c).2.1, (hagree c).2.2.1, (hagree c).2.2.2]
  exact (Cert.Bridge.refOut_eq _ _ _ _ _ _).trans (Cert.KernelIdeal.Boundaries.W8_out m ρ c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
